-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S5x64x64 : Shape := ⟨3, ![5, 64, 64]⟩
abbrev S64 : Shape := ⟨1, ![64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg12 : FVec F S64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64 .f32) (main_arg12 : FVec F S64 .f32) (main_arg13 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S5x64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S5x64x64 .f32 := Host.absf main_arg2
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S5x64x64 : Shape := ⟨3, ![5, 64, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S1x64x64 : Shape := ⟨3, ![1, 64, 64]⟩
abbrev S10000 : Shape := ⟨1, ![10000]⟩
abbrev S10000x1 : Shape := ⟨2, ![10000, 1]⟩

abbrev nBuf : Space → Nat
  | .hbm => 144
  | .vmem => 24
  | .smem => 0
  | _ => 0

abbrev hbmTy0_0 (i : Nat) : BufTy := match i % 128 with
  | 0 => ⟨S100000x64, .f32⟩
  | 1 => ⟨S2x1600000, .i32⟩
  | 2 => ⟨S5x64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S1600000, .i1⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .i1⟩
  | 30 => ⟨S_, .f32⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S1600000, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x64, .f32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S1600000x1, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S1600000x64, .f32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S1600000x1, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x64, .f32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S_, .f32⟩
  | 113 => ⟨S100000x64, .f32⟩
  | 114 => ⟨S100000x64, .f32⟩
  | 115 => ⟨S100000x64, .f32⟩
  | 116 => ⟨S1600000x1, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x64, .f32⟩
  | 127 => ⟨S1600000x64, .f32⟩
  | _ => ⟨S100000x64, .f32⟩

abbrev hbmTy0_1 (i : Nat) : BufTy := match i % 128 with
  | 0 => ⟨S_, .f32⟩
  | 1 => ⟨S100000x64, .f32⟩
  | 2 => ⟨S1600000x1, .i32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S1x64, .f32⟩
  | 9 => ⟨S1x64, .f32⟩
  | 10 => ⟨S1x64, .f32⟩
  | 11 => ⟨S1x64, .f32⟩
  | 12 => ⟨S1x64, .f32⟩
  | 13 => ⟨S1x64, .f32⟩
  | 14 => ⟨S1x64, .f32⟩
  | 15 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S5x64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_10 : Ref sig .tc := ⟨.hbm, 77, rfl⟩
abbrev main_v47 : Ref sig .tc := ⟨.hbm, 78, rfl⟩
abbrev main_v48 : Ref sig .tc := ⟨.hbm, 79, rfl⟩
abbrev main_c_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_14 : Ref sig .tc := ⟨.hbm, 97, rfl⟩
abbrev main_v63 : Ref sig .tc := ⟨.hbm, 98, rfl⟩
abbrev main_v64 : Ref sig .tc := ⟨.hbm, 99, rfl⟩
abbrev main_c_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_18 : Ref sig .tc := ⟨.hbm, 117, rfl⟩
abbrev main_v79 : Ref sig .tc := ⟨.hbm, 118, rfl⟩
abbrev main_v80 : Ref sig .tc := ⟨.hbm, 119, rfl⟩
abbrev main_c_19 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_20 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S10000x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S5x64x64_S1x64x64_0_0_0 : ∀ a, (![0, 0, 0] : Fin 3 → Nat) a + S1x64x64.size a ≤ S5x64x64.size a
  h_S1x64x64 : 0 < S1x64x64.numel
  shapeCasts_S1x64x64_S64x64 : S1x64x64.ShapeCasts S64x64
  shapeCasts_S10000x64_S10000x64 : S10000x64.ShapeCasts S10000x64
  inb_S5x64x64_S1x64x64_1_0_0 : ∀ a, (![1, 0, 0] : Fin 3 → Nat) a + S1x64x64.size a ≤ S5x64x64.size a
  inb_S5x64x64_S1x64x64_2_0_0 : ∀ a, (![2, 0, 0] : Fin 3 → Nat) a + S1x64x64.size a ≤ S5x64x64.size a
  inb_S5x64x64_S1x64x64_3_0_0 : ∀ a, (![3, 0, 0] : Fin 3 → Nat) a + S1x64x64.size a ≤ S5x64x64.size a
  inb_S5x64x64_S1x64x64_4_0_0 : ∀ a, (![4, 0, 0] : Fin 3 → Nat) a + S1x64x64.size a ≤ S5x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  reduces_S10000x64_S10000 : S10000x64.Reduces [1] S10000
  shapeCasts_S10000_S10000x1 : S10000.ShapeCasts S10000x1
  broadcasts_S10000x1_S10000x64 : S10000x1.Broadcasts S10000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x64x64.size a ≤ S5x64x64.size a
  hwx0_5 : ∀ i : grid0.Coords, EltTy.bits .f32 = 32 ∨ (Rect.block (s := S5x64x64) S5x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x64.size a ≤ S64x64.size a
  hwx0_13 : ∀ i : grid0.Coords, EltTy.bits .f32 = 32 ∨ (Rect.block (s := S64x64) S64x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S10000x64.size a ≤ S100000x64.size a
  hwx0_17 : ∀ i : grid0.Coords, EltTy.bits .f32 = 32 ∨ (Rect.block (s := S100000x64) S10000x64.size (cc0_transform_17 i) (hinb0_17 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v77) S10000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v93) S10000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S5x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v94) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v95) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v96) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v97) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S64x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v98) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v99) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v100) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v101) S10000x64.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S5x64x64 : Shape := ⟨3, ![5, 64, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64x64 : Shape := ⟨3, ![1, 64, 64]⟩
abbrev S1600000x64 : Shape := ⟨2, ![1600000, 64]⟩
abbrev S1x64 : Shape := ⟨2, ![1, 64]⟩
abbrev S100000x1 : Shape := ⟨2, ![100000, 1]⟩

abbrev nBuf : Space → Nat
  | .hbm => 212
  | .vmem => 0
  | .smem => 0
  | _ => 0

abbrev hbmTy0_0 (i : Nat) : BufTy := match i % 128 with
  | 0 => ⟨S100000x64, .f32⟩
  | 1 => ⟨S2x1600000, .i32⟩
  | 2 => ⟨S5x64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S1600000, .i1⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .i1⟩
  | 30 => ⟨S_, .f32⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S1600000, .f32⟩
  | 60 => ⟨S1x64x64, .f32⟩
  | 61 => ⟨S64x64, .f32⟩
  | 62 => ⟨S100000x64, .f32⟩
  | 63 => ⟨S1600000x1, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .f32⟩
  | 73 => ⟨S1600000x64, .f32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S1x64x64, .f32⟩
  | 80 => ⟨S64x64, .f32⟩
  | 81 => ⟨S100000x64, .f32⟩
  | 82 => ⟨S100000x64, .f32⟩
  | 83 => ⟨S1600000x1, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x64, .f32⟩
  | 93 => ⟨S1600000x64, .f32⟩
  | 94 => ⟨S1600000x64, .f32⟩
  | 95 => ⟨S_, .f32⟩
  | 96 => ⟨S100000x64, .f32⟩
  | 97 => ⟨S1600000x1, .i32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S1x64x64, .f32⟩
  | 104 => ⟨S64x64, .f32⟩
  | 105 => ⟨S100000x64, .f32⟩
  | 106 => ⟨S100000x64, .f32⟩
  | 107 => ⟨S1600000x1, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S1600000x64, .f32⟩
  | 118 => ⟨S1600000x64, .f32⟩
  | 119 => ⟨S_, .f32⟩
  | 120 => ⟨S100000x64, .f32⟩
  | 121 => ⟨S1600000x1, .i32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S1x64x64, .f32⟩
  | _ => ⟨S100000x64, .f32⟩

abbrev hbmTy0_1 (i : Nat) : BufTy := match i % 128 with
  | 0 => ⟨S64x64, .f32⟩
  | 1 => ⟨S100000x64, .f32⟩
  | 2 => ⟨S100000x64, .f32⟩
  | 3 => ⟨S1600000x1, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x64, .f32⟩
  | 13 => ⟨S1600000x64, .f32⟩
  | 14 => ⟨S1600000x64, .f32⟩
  | 15 => ⟨S_, .f32⟩
  | 16 => ⟨S100000x64, .f32⟩
  | 17 => ⟨S1600000x1, .i32⟩
  | 18 => ⟨S100000x64, .f32⟩
  | 19 => ⟨S_, .f32⟩
  | 20 => ⟨S100000x64, .f32⟩
  | 21 => ⟨S100000x64, .f32⟩
  | 22 => ⟨S100000x64, .f32⟩
  | 23 => ⟨S1x64x64, .f32⟩
  | 24 => ⟨S64x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000, .f32⟩
  | 57 => ⟨S100000x1, .f32⟩
  | 58 => ⟨S_, .f32⟩
  | 59 => ⟨S100000x1, .f32⟩
  | 60 => ⟨S100000x1, .f32⟩
  | 61 => ⟨S100000x64, .f32⟩
  | 62 => ⟨S100000x64, .f32⟩
  | 63 => ⟨S100000x64, .f32⟩
  | 64 => ⟨S_, .f32⟩
  | 65 => ⟨S100000, .f32⟩
  | 66 => ⟨S100000x1, .f32⟩
  | 67 => ⟨S_, .f32⟩
  | 68 => ⟨S100000x1, .f32⟩
  | 69 => ⟨S100000x1, .f32⟩
  | 70 => ⟨S100000x64, .f32⟩
  | 71 => ⟨S100000x64, .f32⟩
  | 72 => ⟨S_, .f32⟩
  | 73 => ⟨S100000x1, .f32⟩
  | 74 => ⟨S100000x1, .f32⟩
  | 75 => ⟨S100000x1, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_14 : Ref sig .tc := ⟨.hbm, 108, rfl⟩
abbrev main_v74 : Ref sig .tc := ⟨.hbm, 109, rfl⟩
abbrev main_v75 : Ref sig .tc := ⟨.hbm, 110, rfl⟩
abbrev main_c_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_c_18 : Ref sig .tc := ⟨.hbm, 132, rfl⟩
abbrev main_v94 : Ref sig .tc := ⟨.hbm, 133, rfl⟩
abbrev main_v95 : Ref sig .tc := ⟨.hbm, 134, rfl⟩
abbrev main_c_19 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_20 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_21 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_call2_cst : Ref sig .tc := ⟨.hbm, 162, rfl⟩
abbrev main_call2_v0 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_call3_cst : Ref sig .tc := ⟨.hbm, 169, rfl⟩
abbrev main_call3_v0 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_call4_cst : Ref sig .tc := ⟨.hbm, 176, rfl⟩
abbrev main_call4_v0 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_22 : Ref sig .tc := ⟨.hbm, 183, rfl⟩
abbrev main_v135 : Ref sig .tc := ⟨.hbm, 184, rfl⟩
abbrev main_v136 : Ref sig .tc := ⟨.hbm, 185, rfl⟩
abbrev main_cst_23 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_24 : Ref sig .tc := ⟨.hbm, 192, rfl⟩
abbrev main_v142 : Ref sig .tc := ⟨.hbm, 193, rfl⟩
abbrev main_v143 : Ref sig .tc := ⟨.hbm, 194, rfl⟩
abbrev main_cst_25 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_26 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S5x64x64_S1x64x64_0_0_0 : S5x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.RefFold.lean ====
/-
  The reference's result buffer, read off the fold of its operations: the last stage of the chain of stages, each the value
  one operation writes as a function of the arguments it depends on.
-/
import proofs.«140817_j45509473468797_2_alg».proof.Proof.RefRunP
import proofs.«140817_j45509473468797_2_alg».proof.Proof.RefReadP

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 100000000 in
/-- The fold of the reference's operations over the launch contents holds, at the result buffer, the last stage applied to
    the fourteen arguments. -/
theorem fold_eq (m : (ℓ : Loc nD τ sig) → Buf (Elt F) ℓ) (c : Dev nD) :
    after (ValueP.ops (F := F)) (launchContents m c) (Proc.devRef .tc main_v158)
      = ReadP.val_main_v158 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  after_results_simp
  rfl

end Cert.ReferenceIdeal.Fold

end
-- ==== Proof.Spec.lean ====
/-
  The dense stage of the block, one node at a time.

  Every node (a row of the node-feature matrix) is treated alone: its five Chebyshev feature rows t0 … t4, each of
  length 64, are multiplied by the five 64 × 64 Chebyshev weight matrices and summed left to right, a bias row is
  added, three affine layers each followed by a maximum with zero and a fourth affine layer follow, and the result is
  normalised: its mean is subtracted, it is scaled by the reciprocal square root of its variance plus a small constant,
  multiplied by a gain row and shifted by an offset row. All of it is over the extended reals, where a sum has no
  order of evaluation; mean and variance divide the sum of the 64 entries by the literal 64.
-/
import Idealize.ShloMosaic.PureOps.Ideal
import Idealize.ShloMosaic.Lib.ValueIdx

noncomputable section

namespace Cert.GnRow

open Idealize.ShloMosaic

/-- Entry `q` of the row `v` times the 64 × 64 matrix `W`. -/
def dotRow (v : Fin 64 → EReal) (W : Fin 64 → Fin 64 → EReal) (q : Fin 64) : EReal :=
  ∑ c : Fin 64, v c * W c q

/-- The Chebyshev combination of a node's five feature rows: the five products summed left to right, plus the bias. -/
def cheb (t0 t1 t2 t3 t4 : Fin 64 → EReal) (W0 W1 W2 W3 W4 : Fin 64 → Fin 64 → EReal) (b : Fin 64 → EReal) :
    Fin 64 → EReal :=
  fun q => ((((dotRow t0 W0 q + dotRow t1 W1 q) + dotRow t2 W2 q) + dotRow t3 W3 q) + dotRow t4 W4 q) + b q

/-- One affine layer on a row. -/
def lin (v : Fin 64 → EReal) (W : Fin 64 → Fin 64 → EReal) (b : Fin 64 → EReal) : Fin 64 → EReal :=
  fun q => dotRow v W q + b q

/-- The maximum with zero, entry by entry. -/
def relu (v : Fin 64 → EReal) : Fin 64 → EReal :=
  fun q => max (v q) (Ideal.ofBits .f32 0x00000000#32)

/-- The mean of a row's 64 entries: their sum divided by 64. -/
def mean (v : Fin 64 → EReal) : EReal :=
  Ideal.div (∑ k : Fin 64, v k) (Ideal.ofBits .f32 0x42800000#32)

/-- A row minus its mean. -/
def centred (v : Fin 64 → EReal) : Fin 64 → EReal :=
  fun q => v q - mean v

/-- Layer normalisation of a row with gain `g` and offset `bt`. -/
def layerNorm (h g bt : Fin 64 → EReal) : Fin 64 → EReal :=
  fun q => centred h q * Ideal.rsqrt (mean (fun k => centred h k * centred h k) + Ideal.ofBits .f32 0x3727C5AC#32)
    * g q + bt q

/-- The three hidden layers: affine, maximum with zero, three times. -/
def hidden (h0 : Fin 64 → EReal) (w1 : Fin 64 → Fin 64 → EReal) (b1 : Fin 64 → EReal)
    (w2 : Fin 64 → Fin 64 → EReal) (b2 : Fin 64 → EReal) (w3 : Fin 64 → Fin 64 → EReal) (b3 : Fin 64 → EReal) :
    Fin 64 → EReal :=
  relu (lin (relu (lin (relu (lin h0 w1 b1)) w2 b2)) w3 b3)

/-- What the block computes for one node from its five Chebyshev feature rows. -/
def node (t0 t1 t2 t3 t4 : Fin 64 → EReal) (W0 W1 W2 W3 W4 : Fin 64 → Fin 64 → EReal) (cb : Fin 64 → EReal)
    (w1 : Fin 64 → Fin 64 → EReal) (b1 : Fin 64 → EReal) (w2 : Fin 64 → Fin 64 → EReal) (b2 : Fin 64 → EReal)
    (w3 : Fin 64 → Fin 64 → EReal) (b3 : Fin 64 → EReal) (w4 : Fin 64 → Fin 64 → EReal) (b4 : Fin 64 → EReal)
    (g bt : Fin 64 → EReal) : Fin 64 → EReal :=
  layerNorm (lin (hidden (cheb t0 t1 t2 t3 t4 W0 W1 W2 W3 W4 cb) w1 b1 w2 b2 w3 b3) w4 b4) g bt

end Cert.GnRow

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.KernelRow.lean ====
/-
  The kernel body's arithmetic read one entry at a time.

  The body works on a tile of 10000 nodes. Every operation in it acts on each node (row) alone: a product of the tile
  with a 64 × 64 matrix has, at (p, q), the sum over c of the tile's entry (p, c) times the matrix's entry (c, q); a
  [1, 64] row repeated over the tile reads the row at q; a sum along the 64 columns kept as a column and repeated reads
  the sum of row p. So each of the body's computed tiles, at (p, q), is entry q of the node function applied to row p of
  the loaded feature tiles and to the loaded weights: the Chebyshev combination, the hidden layers, the last affine
  layer and the normalisation. Rounding a tile to a narrower float format is the identity on the extended reals.
-/
import proofs.«140817_j45509473468797_2_alg».proof.Proof.Gen.KernelIdeal.Skeleton
import proofs.«140817_j45509473468797_2_alg».proof.Proof.Spec
import proofs.«140817_j45509473468797_2_alg».proof.Proof.LibPlainDot
import proofs.«140817_j45509473468797_2_alg».proof.Proof.LibKeepdims
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx Cert.GnRow

/-- Row `p` of a 10000 × 64 tile. -/
def tileRow (x : S10000x64.Idx → EReal) (p : Fin 10000) : Fin 64 → EReal := fun c => x (ix2 p c)

/-- A 64 × 64 matrix by its two coordinates. -/
def mat64 (w : S64x64.Idx → EReal) : Fin 64 → Fin 64 → EReal := fun c q => w (ix2 c q)

/-- A [1, 64, 64] slab by its two trailing coordinates. -/
def slab64 (w : S1x64x64.Idx → EReal) : Fin 64 → Fin 64 → EReal := fun c q => w (ix3 (0 : Fin 1) c q)

/-- A [1, 64] row by its coordinate. -/
def row64 (b : S1x64.Idx → EReal) : Fin 64 → EReal := fun q => b (ix2 (0 : Fin 1) q)

/-- The matrix unit's product of a tile with a 64 × 64 matrix into the zero tile, at (p, q). -/
theorem mm_apply {φ₁ φ₂ : FTy} (A : FVec Ideal S10000x64 φ₁) (B : FVec Ideal S64x64 φ₂) (p : Fin 10000) (q : Fin 64) :
    matmul dot_S10000x64_S64x64_S10000x64_1_0_0_1_n_n none A B (constant (F := Ideal) S10000x64 .f32 0x00000000#32) (ix2 p q)
      = ∑ c : Fin 64, A (ix2 p c) * B (ix2 c q) :=
  Cert.LibPlainDot.matmul_plain_zero_apply (m := 10000) (k := 64) (n := 64) none A B p q

/-- The reciprocal square root of a tile, entry by entry. -/
theorem rsqrt_apply {s : Shape} {φ : FTy} (a : FVec Ideal s φ) (i : s.Idx) : rsqrt a i = Ideal.rsqrt (a i) := rfl

/-- A scalar literal on the extended reals is the number its word denotes. -/
theorem scalar_lit (b : BitVec 32) : (Scalar.ofBits (F := Ideal) .f32 b) = Ideal.ofBits .f32 b := rfl

/-- The sum along the columns started from the zero word, at row `p`: the sum of the row's 64 entries. -/
theorem rowSum0_apply (src : FVec Ideal S10000x64 .f32) (h : S10000x64.Reduces [1] S10000)
    (hφ : FTy.f32 = FTy.f32 ∨ FTy.f32 = FTy.bf16) (hacc : (0x00000000#32 : BitVec 32) = 0x00000000#32) (p : Fin 10000) :
    multiReduction .add [1] S10000 src 0x00000000#32 h hφ hacc (ix1 p) = ∑ k : Fin 64, src (ix2 p k) :=
  rowSum_apply (a := 10000) (b := 64) src 0x00000000#32 h hφ hacc p

end Cert.KernelIdeal.Row

end
-- ==== Proof.KernelPay.lean ====
/-
  The kernel body's four computed tiles, one entry at a time: each is the node function's corresponding stage applied to
  row p of the tiles it reads.
-/
import proofs.«140817_j45509473468797_2_alg».proof.Proof.KernelRow

noncomputable section

namespace Cert.KernelIdeal.Row

open Cert.KernelIdeal Cert.KernelIdeal.Gen Idealize.ShloMosaic Idealize.ShloMosaic.ValueIdx Cert.GnRow

/-- The first four Chebyshev products summed left to right, at (p, q). -/
theorem pay2_apply (v0 v6 v14 v22 : Vec Ideal S10000x64 .f32) (v2 v9 v17 v25 : Vec Ideal S1x64x64 .f32)
    (p : Fin 10000) (q : Fin 64) :
    k0_pay2 (F := Ideal) v0 v2 v6 v9 v14 v17 v22 v25 (ix2 p q)
      = ((dotRow (tileRow v0 p) (slab64 v2) q + dotRow (tileRow v6 p) (slab64 v9) q) + dotRow (tileRow v14 p) (slab64 v17) q)
          + dotRow (tileRow v22 p) (slab64 v25) q := by
  simp only [k0_pay2, addf_apply, mm_apply, truncf_apply, shapeCast_self, shapeCast_1ab_ab_apply]
  rfl

/-- The fifth feature tile rounded to the narrower format is the tile itself. -/
theorem pay3_apply (v30 : Vec Ideal S10000x64 .f32) (i : S10000x64.Idx) : k0_pay3 (F := Ideal) v30 i = v30 i := by
  simp only [k0_pay3, truncf_apply, shapeCast_self]

/-- The fifth product and the bias added, then the three hidden layers' affine maps with a maximum with zero after the
    first two, at (p, q): the third hidden layer's value before its maximum with zero. -/
theorem pay4_apply (v29 : FVec Ideal S10000x64 .f32) (v32 : FVec Ideal S10000x64 .bf16) (v33 : Vec Ideal S1x64x64 .f32)
    (v38 : Vec Ideal S1x64 .f32) (v43 : Vec Ideal S64x64 .f32) (v46 : Vec Ideal S1x64 .f32) (v53 : Vec Ideal S64x64 .f32)
    (v56 : Vec Ideal S1x64 .f32) (v63 : Vec Ideal S64x64 .f32) (v66 : Vec Ideal S1x64 .f32) (p : Fin 10000) (q : Fin 64) :
    k0_pay4 (F := Ideal) v29 v32 v33 v38 v43 v46 v53 v56 v63 v66 (ix2 p q)
      = lin (relu (lin (relu (lin (fun c => (tileRow v29 p c + dotRow (tileRow v32 p) (slab64 v33) c) + row64 v38 c)
          (mat64 v43) (row64 v46))) (mat64 v53) (row64 v56))) (mat64 v63) (row64 v66) q := by
  simp only [k0_pay4, addf_apply, maximumf_apply, mm_apply, truncf_apply, shapeCast_self, shapeCast_1ab_ab_apply,
    broadcastTo_1b_ab_apply, broadcast_apply, scalar_lit]
  rfl

/-- The maximum with zero, the last affine layer and the normalisation, at (p, q). -/
theorem pay1_apply (v69 : FVec Ideal S10000x64 .f32) (v73 : Vec Ideal S64x64 .f32) (v76 v98 v102 : Vec Ideal S1x64 .f32)
    (p : Fin 10000) (q : Fin 64) :
    k0_pay1 (F := Ideal) v69 v73 v76 v98 v102 (ix2 p q)
      = layerNorm (lin (relu (tileRow v69 p)) (mat64 v73) (row64 v76)) (row64 v98) (row64 v102) q := by
  simp only [k0_pay1, addf_apply, subf_apply, mulf_apply, divf_apply, rsqrt_apply, maximumf_apply, mm_apply, truncf_apply,
    shapeCast_self, broadcastTo_1b_ab_apply, broadcast_apply, scalar_lit, shapeCast_a_a1_apply, broadcastTo_a1_ab_apply]
  repeat (rw [rowSum0_apply]; try simp only [addf_apply, subf_apply, mulf_apply, divf_apply, rsqrt_apply, maximumf_apply, mm_apply,
    truncf_apply, shapeCast_self, broadcastTo_1b_ab_apply, broadcast_apply, scalar_lit, shapeCast_a_a1_apply,
    broadcastTo_a1_ab_apply])
  rfl

end Cert.KernelIdeal.Row

end
-- ==== Proof.KernelBlocks.lean ====
/-
  Where the kernel's windows sit in their arrays.

  The grid has ten points. At point t the five feature windows and the output window hold rows 10000·t … 10000·t + 9999 of
  their 100000 × 64 arrays; the weight, bias, gain and offset windows hold their whole arrays at every point. So an
  entry (p, q) of a feature block is the array's entry (10000·t + p, q), and a resident window's block is its array.
-/
import proofs.«140817_j45509473468797_2_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-- The tiled windows' block index at point `t` is (t, 0), decided over the ten points. -/
theorem idx_tiles : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_17.index t (0 : Fin 2) = t.val ∧ win0_17.index t (1 : Fin 2) = 0 :=
  (by decide +kernel : ∀ t : Fin grid0.N, _)

/-- The resident windows' block index is zero on every axis at every point, decided over the ten points. -/
theorem idx_res : ∀ t : Fin cfg0.N, win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

/-- Window 0's block at point `t` holds rows 10000·t … 10000·t + 9999 of its array. -/
theorem emb_tile0 (t : Fin cfg0.N) (p : Fin 10000) (q : Fin 64) (hp : t.val * 10000 + p.val < 100000) :
    ((cfg0.win 0).blk t).view.emb (ix2 p q) = ix2 (⟨t.val * 10000 + p.val, hp⟩ : Fin 100000) q := by
  have h := idx_tiles t
  funext a; apply Fin.ext
  match a with
  | ⟨0, _⟩ => show win0_0.index t (0 : Fin 2) * 10000 + 1 * p.val = t.val * 10000 + p.val; rw [h.1]; omega
  | ⟨1, _⟩ => show win0_0.index t (1 : Fin 2) * 64 + 1 * q.val = q.val; rw [h.2.1]; omega

/-- Window 1's block at point `t` holds rows 10000·t … 10000·t + 9999 of its array. -/
theorem emb_tile1 (t : Fin cfg0.N) (p : Fin 10000) (q : Fin 64) (hp : t.val * 10000 + p.val < 100000) :
    ((cfg0.win 1).blk t).view.emb (ix2 p q) = ix2 (⟨t.val * 10000 + p.val, hp⟩ : Fin 100000) q := by
  have h := idx_tiles t
  funext a; apply Fin.ext
  match a with
  | ⟨0, _⟩ => show win0_1.index t (0 : Fin 2) * 10000 + 1 * p.val = t.val * 10000 + p.val; rw [h.2.2.1]; omega
  | ⟨1, _⟩ => show win0_1.index t (1 : Fin 2) * 64 + 1 * q.val = q.val; rw [h.2.2.2.1]; omega

/-- Window 2's block at point `t` holds rows 10000·t … 10000·t + 9999 of its array. -/
theorem emb_tile2 (t : Fin cfg0.N) (p : Fin 10000) (q : Fin 64) (hp : t.val * 10000 + p.val < 100000) :
    ((cfg0.win 2).blk t).view.emb (ix2 p q) = ix2 (⟨t.val * 10000 + p.val, hp⟩ : Fin 100000) q := by
  have h := idx_tiles t
  funext a; apply Fin.ext
  match a with
  | ⟨0, _⟩ => show win0_2.index t (0 : Fin 2) * 10000 + 1 * p.val = t.val * 10000 + p.val; rw [h.2.2.2.2.1]; omega
  | ⟨1, _⟩ => show win0_2.index t (1 : Fin 2) * 64 + 1 * q.val = q.val; rw [h.2.2.2.2.2.1]; omega

/-- Window 3's block at point `t` holds rows 10000·t … 10000·t + 9999 of its array. -/
theorem emb_tile3 (t : Fin cfg0.N) (p : Fin 10000) (q : Fin 64) (hp : t.val * 10000 + p.val < 100000) :
    ((cfg0.win 3).blk t).view.emb (ix2 p q) = ix2 (⟨t.val * 10000 + p.val, hp⟩ : Fin 100000) q := by
  have h := idx_tiles t
  funext a; apply Fin.ext
  match a with
  | ⟨0, _⟩ => show win0_3.index t (0 : Fin 2) * 10000 + 1 * p.val = t.val * 10000 + p.val; rw [h.2.2.2.2.2.2.1]; omega
  | ⟨1, _⟩ => show win0_3.index t (1 : Fin 2) * 64 + 1 * q.val = q.val; rw [h.2.2.2.2.2.2.2.1]; omega

/-- Window 4's block at point `t` holds rows 10000·t … 10000·t + 9999 of its array. -/
theorem emb_tile4 (t : Fin cfg0.N) (p : Fin 10000) (q : Fin 64) (hp : t.val * 10000 + p.val < 100000) :
    ((cfg0.win 4).blk t).view.emb (ix2 p q) = ix2 (⟨t.val * 10000 + p.val, hp⟩ : Fin 100000) q := by
  have h := idx_tiles t
  funext a; apply Fin.ext
  match a with
  | ⟨0, _⟩ => show win0_4.index t (0 : Fin 2) * 10000 + 1 * p.val = t.val * 10000 + p.val; rw [h.2.2.2.2.2.2.2.2.1]; omega
  | ⟨1, _⟩ => show win0_4.index t (1 : Fin 2) * 64 + 1 * q.val = q.val; rw [h.2.2.2.2.2.2.2.2.2.1]; omega

/-- Window 17's block at point `t` holds rows 10000·t … 10000·t + 9999 of its array. -/
theorem emb_tile17 (t : Fin cfg0.N) (p : Fin 10000) (q : Fin 64) (hp : t.val * 10000 + p.val < 100000) :
    ((cfg0.win 17).blk t).view.emb (ix2 p q) = ix2 (⟨t.val * 10000 + p.val, hp⟩ : Fin 100000) q := by
  have h := idx_tiles t
  funext a; apply Fin.ext
  match a with
  | ⟨0, _⟩ => show win0_17.index t (0 : Fin 2) * 10000 + 1 * p.val = t.val * 10000 + p.val; rw [h.2.2.2.2.2.2.2.2.2.2.1]; omega
  | ⟨1, _⟩ => show win0_17.index t (1 : Fin 2) * 64 + 1 * q.val = q.val; rw [h.2.2.2.2.2.2.2.2.2.2.2]; omega

/-- The Chebyshev weights' window holds the whole array at every point. -/
theorem emb_res5 (t : Fin cfg0.N) (i : S5x64x64.Idx) : ((cfg0.win 5).blk t).view.emb i = i := by
  have h := idx_res t
  funext a; apply Fin.ext
  match a with
  | ⟨0, _⟩ => show win0_5.index t (0 : Fin 3) * 5 + 1 * (i 0).val = (i 0).val; rw [h.1]; omega
  | ⟨1, _⟩ => show win0_5.index t (1 : Fin 3) * 64 + 1 * (i 1).val = (i 1).val; rw [h.2.1]; omega
  | ⟨2, _⟩ => show win0_5.index t (2 : Fin 3) * 64 + 1 * (i 2).val = (i 2).val; rw [h.2.2.1]; omega

/-- Window 6 holds its whole array at every point. -/
theorem emb_res6 (t : Fin cfg0.N) (i : S1x64.Idx) : ((cfg0.win 6).blk t).view.emb i = i := by
  have h := idx_res t
  funext a; apply Fin.ext
  match a with
  | ⟨0, _⟩ => show win0_6.index t (0 : Fin 2) * 1 + 1 * (i 0).val = (i 0).val; rw [h.2.2.2.1]; omega
  | ⟨1, _⟩ => show win0_6.index t (1 : Fin 2) * 64 + 1 * (i 1).val = (i 1).val; rw [h.2.2.2.2.1]; omega

/-- Window 7 holds its whole array at every point. -/
theorem emb_res7 (t : Fin cfg0.N) (i : S64x64.Idx) : ((cfg0.win 7).blk t).view.emb i = i := by
  have h := idx_res t
  funext a; apply Fin.ext
  match a with
  | ⟨0, _⟩ => show win0_7.index t (0 : Fin 2) * 64 + 1 * (i 0).val = (i 0).val; rw [h.2.2.2.2.2.1]; omega
  | ⟨1, _⟩ => show win0_7.index t (1 : Fin 2) * 64 + 1 * (i 1).val = (i 1).val; rw [h.2.2.2.2.2.2.1]; omega

/-- Window 8 holds its whole array at every point. -/
theorem emb_res8 (t : Fin cfg0.N) (i : S1x64.Idx) : ((cfg0.win 8).blk t).view.emb i = i := by
  have h := idx_res t
  funext a; apply Fin.ext
  match a with
  | ⟨0, _⟩ => show win0_8.index t (0 : Fin 2) * 1 + 1 * (i 0).val = (i 0).val; rw [h.2.2.2.2.2.2.2.1]; omega
  | ⟨1, _⟩ => show win0_8.index t (1 : Fin 2) * 64 + 1 * (i 1).val = (i 1).val; rw [h.2.2.2.2.2.2.2.2.1]; omega

/-- Window 9 holds its whole array at every point. -/
theorem emb_res9 (t : Fin cfg0.N) (i : S64x64.Idx) : ((cfg0.win 9).blk t).view.emb i = i := by
  have h := idx_res t
  funext a; apply Fin.ext
  match a with
  | ⟨0, _⟩ => show win0_9.index t (0 : Fin 2) * 64 + 1 * (i 0).val = (i 0).val; rw [h.2.2.2.2.2.2.2.2.2.1]; omega
  | ⟨1, _⟩ => show win0_9.index t (1 : Fin 2) * 64 + 1 * (i 1).val = (i 1).val; rw [h.2.2.2.2.2.2.2.2.2.2.1]; omega

/-- Window 10 holds its whole array at every point. -/
theorem emb_res10 (t : Fin cfg0.N) (i : S1x64.Idx) : ((cfg0.win 10).blk t).view.emb i = i := by
  have h := idx_res t
  funext a; apply Fin.ext
  match a with
  | ⟨0, _⟩ => show win0_10.index t (0 : Fin 2) * 1 + 1 * (i 0).val = (i 0).val; rw [h.2.2.2.2.2.2.2.2.2.2.2.1]; omega
  | ⟨1, _⟩ => show win0_10.index t (1 : Fin 2) * 64 + 1 * (i 1).val = (i 1).val; rw [h.2.2.2.2.2.2.2.2.2.2.2.2.1]; omega

/-- Window 11 holds its whole array at every point. -/
theorem emb_res11 (t : Fin cfg0.N) (i : S64x64.Idx) : ((cfg0.win 11).blk t).view.emb i = i := by
  have h := idx_res t
  funext a; apply Fin.ext
  match a with
  | ⟨0, _⟩ => show win0_11.index t (0 : Fin 2) * 64 + 1 * (i 0).val = (i 0).val; rw [h.2.2.2.2.2.2.2.2.2.2.2.2.2.1]; omega
  | ⟨1, _⟩ => show win0_11.index t (1 : Fin 2) * 64 + 1 * (i 1).val = (i 1).val; rw [h.2.2.2.2.2.2.2.2.2.2.2.2.2.2.1]; omega

/-- Window 12 holds its whole array at every point. -/
theorem emb_res12 (t : Fin cfg0.N) (i : S1x64.Idx) : ((cfg0.win 12).blk t).view.emb i = i := by
  have h := idx_res t
  funext a; apply Fin.ext
  match a with
  | ⟨0, _⟩ => show win0_12.index t (0 : Fin 2) * 1 + 1 * (i 0).val = (i 0).val; rw [h.2.2.2.2.2.2.2.2.2.2.2.2.2.2.2.1]; omega
  | ⟨1, _⟩ => show win0_12.index t (1 : Fin 2) * 64 + 1 * (i 1).val = (i 1).val; rw [h.2.2.2.2.2.2.2.2.2.2.2.2.2.2.2.2.1]; omega

/-- Window 13 holds its whole array at every point. -/
theorem emb_res13 (t : Fin cfg0.N) (i : S64x64.Idx) : ((cfg0.win 13).blk t).view.emb i = i := by
  have h := idx_res t
  funext a; apply Fin.ext
  match a with
  | ⟨0, _⟩ => show win0_13.index t (0 : Fin 2) * 64 + 1 * (i 0).val = (i 0).val; rw [h.2.2.2.2.2.2.2.2.2.2.2.2.2.2.2.2.2.1]; omega
  | ⟨1, _⟩ => show win0_13.index t (1 : Fin 2) * 64 + 1 * (i 1).val = (i 1).val; rw [h.2.2.2.2.2.2.2.2.2.2.2.2.2.2.2.2.2.2.1]; omega

/-- Window 14 holds its whole array at every point. -/
theorem emb_res14 (t : Fin cfg0.N) (i : S1x64.Idx) : ((cfg0.win 14).blk t).view.emb i = i := by
  have h := idx_res t
  funext a; apply Fin.ext
  match a with
  | ⟨0, _⟩ => show win0_14.index t (0 : Fin 2) * 1 + 1 * (i 0).val = (i 0).val; rw [h.2.2.2.2.2.2.2.2.2.2.2.2.2.2.2.2.2.2.2.1]; omega
  | ⟨1, _⟩ => show win0_14.index t (1 : Fin 2) * 64 + 1 * (i 1).val = (i 1).val; rw [h.2.2.2.2.2.2.2.2.2.2.2.2.2.2.2.2.2.2.2.2.1]; omega

/-- Window 15 holds its whole array at every point. -/
theorem emb_res15 (t : Fin cfg0.N) (i : S1x64.Idx) : ((cfg0.win 15).blk t).view.emb i = i := by
  have h := idx_res t
  funext a; apply Fin.ext
  match a with
  | ⟨0, _⟩ => show win0_15.index t (0 : Fin 2) * 1 + 1 * (i 0).val = (i 0).val; rw [h.2.2.2.2.2.2.2.2.2.2.2.2.2.2.2.2.2.2.2.2.2.1]; omega
  | ⟨1, _⟩ => show win0_15.index t (1 : Fin 2) * 64 + 1 * (i 1).val = (i 1).val; rw [h.2.2.2.2.2.2.2.2.2.2.2.2.2.2.2.2.2.2.2.2.2.2.1]; omega

/-- Window 16 holds its whole array at every point. -/
theorem emb_res16 (t : Fin cfg0.N) (i : S1x64.Idx) : ((cfg0.win 16).blk t).view.emb i = i := by
  have h := idx_res t
  funext a; apply Fin.ext
  match a with
  | ⟨0, _⟩ => show win0_16.index t (0 : Fin 2) * 1 + 1 * (i 0).val = (i 0).val; rw [h.2.2.2.2.2.2.2.2.2.2.2.2.2.2.2.2.2.2.2.2.2.2.2.1]; omega
  | ⟨1, _⟩ => show win0_16.index t (1 : Fin 2) * 64 + 1 * (i 1).val = (i 1).val; rw [h.2.2.2.2.2.2.2.2.2.2.2.2.2.2.2.2.2.2.2.2.2.2.2.2]; omega

/-! ## The blocks read off the arrays as the region finds them -/

theorem read_tile0 (c : Dev nD) (t : Fin cfg0.N) (p : Fin 10000) (q : Fin 64) (hp : t.val * 10000 + p.val < 100000) :
    iblk m c 0 t (ix2 p q) = V m c (Pipeline.arrRef spec0 0) (ix2 (⟨t.val * 10000 + p.val, hp⟩ : Fin 100000) q) := by
  unfold iblk; rw [View.read_apply, emb_tile0 t p q hp]; exact cast_eq _ _

theorem read_tile1 (c : Dev nD) (t : Fin cfg0.N) (p : Fin 10000) (q : Fin 64) (hp : t.val * 10000 + p.val < 100000) :
    iblk m c 1 t (ix2 p q) = V m c (Pipeline.arrRef spec0 1) (ix2 (⟨t.val * 10000 + p.val, hp⟩ : Fin 100000) q) := by
  unfold iblk; rw [View.read_apply, emb_tile1 t p q hp]; exact cast_eq _ _

theorem read_tile2 (c : Dev nD) (t : Fin cfg0.N) (p : Fin 10000) (q : Fin 64) (hp : t.val * 10000 + p.val < 100000) :
    iblk m c 2 t (ix2 p q) = V m c (Pipeline.arrRef spec0 2) (ix2 (⟨t.val * 10000 + p.val, hp⟩ : Fin 100000) q) := by
  unfold iblk; rw [View.read_apply, emb_tile2 t p q hp]; exact cast_eq _ _

theorem read_tile3 (c : Dev nD) (t : Fin cfg0.N) (p : Fin 10000) (q : Fin 64) (hp : t.val * 10000 + p.val < 100000) :
    iblk m c 3 t (ix2 p q) = V m c (Pipeline.arrRef spec0 3) (ix2 (⟨t.val * 10000 + p.val, hp⟩ : Fin 100000) q) := by
  unfold iblk; rw [View.read_apply, emb_tile3 t p q hp]; exact cast_eq _ _

theorem read_tile4 (c : Dev nD) (t : Fin cfg0.N) (p : Fin 10000) (q : Fin 64) (hp : t.val * 10000 + p.val < 100000) :
    iblk m c 4 t (ix2 p q) = V m c (Pipeline.arrRef spec0 4) (ix2 (⟨t.val * 10000 + p.val, hp⟩ : Fin 100000) q) := by
  unfold iblk; rw [View.read_apply, emb_tile4 t p q hp]; exact cast_eq _ _

theorem read_res5 (c : Dev nD) (t : Fin cfg0.N) (i : S5x64x64.Idx) :
    iblk m c 5 t i = V m c (Pipeline.arrRef spec0 5) i := by
  unfold iblk; rw [View.read_apply, emb_res5 t i]; exact cast_eq _ _

theorem read_res6 (c : Dev nD) (t : Fin cfg0.N) (i : S1x64.Idx) :
    iblk m c 6 t i = V m c (Pipeline.arrRef spec0 6) i := by
  unfold iblk; rw [View.read_apply, emb_res6 t i]; exact cast_eq _ _

theorem read_res7 (c : Dev nD) (t : Fin cfg0.N) (i : S64x64.Idx) :
    iblk m c 7 t i = V m c (Pipeline.arrRef spec0 7) i := by
  unfold iblk; rw [View.read_apply, emb_res7 t i]; exact cast_eq _ _

theorem read_res8 (c : Dev nD) (t : Fin cfg0.N) (i : S1x64.Idx) :
    iblk m c 8 t i = V m c (Pipeline.arrRef spec0 8) i := by
  unfold iblk; rw [View.read_apply, emb_res8 t i]; exact cast_eq _ _

theorem read_res9 (c : Dev nD) (t : Fin cfg0.N) (i : S64x64.Idx) :
    iblk m c 9 t i = V m c (Pipeline.arrRef spec0 9) i := by
  unfold iblk; rw [View.read_apply, emb_res9 t i]; exact cast_eq _ _

theorem read_res10 (c : Dev nD) (t : Fin cfg0.N) (i : S1x64.Idx) :
    iblk m c 10 t i = V m c (Pipeline.arrRef spec0 10) i := by
  unfold iblk; rw [View.read_apply, emb_res10 t i]; exact cast_eq _ _

theorem read_res11 (c : Dev nD) (t : Fin cfg0.N) (i : S64x64.Idx) :
    iblk m c 11 t i = V m c (Pipeline.arrRef spec0 11) i := by
  unfold iblk; rw [View.read_apply, emb_res11 t i]; exact cast_eq _ _

theorem read_res12 (c : Dev nD) (t : Fin cfg0.N) (i : S1x64.Idx) :
    iblk m c 12 t i = V m c (Pipeline.arrRef spec0 12) i := by
  unfold iblk; rw [View.read_apply, emb_res12 t i]; exact cast_eq _ _

theorem read_res13 (c : Dev nD) (t : Fin cfg0.N) (i : S64x64.Idx) :
    iblk m c 13 t i = V m c (Pipeline.arrRef spec0 13) i := by
  unfold iblk; rw [View.read_apply, emb_res13 t i]; exact cast_eq _ _

theorem read_res14 (c : Dev nD) (t : Fin cfg0.N) (i : S1x64.Idx) :
    iblk m c 14 t i = V m c (Pipeline.arrRef spec0 14) i := by
  unfold iblk; rw [View.read_apply, emb_res14 t i]; exact cast_eq _ _

theorem read_res15 (c : Dev nD) (t : Fin cfg0.N) (i : S1x64.Idx) :
    iblk m c 15 t i = V m c (Pipeline.arrRef spec0 15) i := by
  unfold iblk; rw [View.read_apply, emb_res15 t i]; exact cast_eq _ _

theorem read_res16 (c : Dev nD) (t : Fin cfg0.N) (i : S1x64.Idx) :
    iblk m c 16 t i = V m c (Pipeline.arrRef spec0 16) i := by
  unfold iblk; rw [View.read_apply, emb_res16 t i]; exact cast_eq _ _

end Cert.KernelIdeal.Blocks

end
-- ==== Proof.Whole.lean ====
/-
  The block's result as one function of whole arrays.

  The node-feature matrices T0 … T4 are 100000 × 64, the Chebyshev weights one 5 × 64 × 64 array, the other weights
  64 × 64 matrices; the biases, gain and offset are rows of 64 numbers. The result at (r, q) is entry q of the node
  function applied to row r of each feature matrix.
-/
import proofs.«140817_j45509473468797_2_alg».proof.Proof.Spec

noncomputable section

namespace Cert.GnRow

open Idealize.ShloMosaic Idealize.ShloMosaic.ValueIdx

/-- The result row of node `r`. -/
def nodeAt (T0 T1 T2 T3 T4 : (⟨2, ![100000, 64]⟩ : Shape).Idx → EReal) (Wc : (⟨3, ![5, 64, 64]⟩ : Shape).Idx → EReal)
    (cb : Fin 64 → EReal) (w1 : (⟨2, ![64, 64]⟩ : Shape).Idx → EReal) (b1 : Fin 64 → EReal) (w2 : (⟨2, ![64, 64]⟩ : Shape).Idx → EReal) (b2 : Fin 64 → EReal)
    (w3 : (⟨2, ![64, 64]⟩ : Shape).Idx → EReal) (b3 : Fin 64 → EReal) (w4 : (⟨2, ![64, 64]⟩ : Shape).Idx → EReal) (b4 : Fin 64 → EReal) (g bt : Fin 64 → EReal) (r : Fin 100000) : Fin 64 → EReal :=
  node (fun c => T0 (ix2 r c)) (fun c => T1 (ix2 r c)) (fun c => T2 (ix2 r c)) (fun c => T3 (ix2 r c)) (fun c => T4 (ix2 r c))
    (fun c q => Wc (ix3 (0 : Fin 5) c q)) (fun c q => Wc (ix3 (1 : Fin 5) c q)) (fun c q => Wc (ix3 (2 : Fin 5) c q))
    (fun c q => Wc (ix3 (3 : Fin 5) c q)) (fun c q => Wc (ix3 (4 : Fin 5) c q)) cb
    (fun c q => w1 (ix2 c q)) b1 (fun c q => w2 (ix2 c q)) b2 (fun c q => w3 (ix2 c q)) b3 (fun c q => w4 (ix2 c q)) b4 g bt

/-- The whole result array. -/
def whole (T0 T1 T2 T3 T4 : (⟨2, ![100000, 64]⟩ : Shape).Idx → EReal) (Wc : (⟨3, ![5, 64, 64]⟩ : Shape).Idx → EReal)
    (cb : Fin 64 → EReal) (w1 : (⟨2, ![64, 64]⟩ : Shape).Idx → EReal) (b1 : Fin 64 → EReal) (w2 : (⟨2, ![64, 64]⟩ : Shape).Idx → EReal) (b2 : Fin 64 → EReal)
    (w3 : (⟨2, ![64, 64]⟩ : Shape).Idx → EReal) (b3 : Fin 64 → EReal) (w4 : (⟨2, ![64, 64]⟩ : Shape).Idx → EReal) (b4 : Fin 64 → EReal) (g bt : Fin 64 → EReal) : (⟨2, ![100000, 64]⟩ : Shape).Idx → EReal :=
  fun i => nodeAt T0 T1 T2 T3 T4 Wc cb w1 b1 w2 b2 w3 b3 w4 b4 g bt ⟨(i 0).val, idx2_lt0 i⟩ ⟨(i 1).val, idx2_lt1 i⟩

/-- The whole result array at an index given by coordinates. -/
theorem whole_ix2 (T0 T1 T2 T3 T4 : (⟨2, ![100000, 64]⟩ : Shape).Idx → EReal) (Wc : (⟨3, ![5, 64, 64]⟩ : Shape).Idx → EReal)
    (cb : Fin 64 → EReal) (w1 : (⟨2, ![64, 64]⟩ : Shape).Idx → EReal) (b1 : Fin 64 → EReal) (w2 : (⟨2, ![64, 64]⟩ : Shape).Idx → EReal) (b2 : Fin 64 → EReal)
    (w3 : (⟨2, ![64, 64]⟩ : Shape).Idx → EReal) (b3 : Fin 64 → EReal) (w4 : (⟨2, ![64, 64]⟩ : Shape).Idx → EReal) (b4 : Fin 64 → EReal) (g bt : Fin 64 → EReal) (r : Fin 100000) (q : Fin 64) :
    whole T0 T1 T2 T3 T4 Wc cb w1 b1 w2 b2 w3 b3 w4 b4 g bt (ix2 r q) = nodeAt T0 T1 T2 T3 T4 Wc cb w1 b1 w2 b2 w3 b3 w4 b4 g bt r q := rfl

end Cert.GnRow

end
-- ==== Proof.KernelValue.lean ====
/-
  The kernel's result array.

  At grid point t the body stores, at (p, q) of its output tile, entry q of the node function applied to row p of the five
  feature tiles and to the resident weights. Row p of a feature tile at point t is row 10000·t + p of the feature array, the
  output tile at point t is rows 10000·t … 10000·t + 9999 of the result array, and the ten tiles cover it: the result array
  is the node function applied to every row of the feature arrays as the region finds them.
-/
import proofs.«140817_j45509473468797_2_alg».proof.Proof.KernelPay
import proofs.«140817_j45509473468797_2_alg».proof.Proof.KernelBlocks
import proofs.«140817_j45509473468797_2_alg».proof.Proof.Whole

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.KernelIdeal.Row Cert.KernelIdeal.Blocks
open Idealize.ShloMosaic.ValueIdx Cert.GnRow

variable (m : (ℓ : Loc nD τ sig) → Buf (Elt Ideal) ℓ) (ρ : Dev nD → PrngReg)

theorem hz2 : (![0, 0] : Fin 2 → Nat) = fun _ => 0 := funext fun a => by fin_cases a <;> rfl

/-- The rectangle of slab 0 of the 5 × 64 × 64 weights sends (0, c, q) to (0, c, q). -/
theorem idx_slab0 (c q : Fin 64) : (r0_1 : Rect S5x64x64).idx (ix3 (0 : Fin 1) c q) = ix3 (0 : Fin 5) c q := by
  funext a; apply Fin.ext
  match a with
  | ⟨0, _⟩ => show 0 + 1 * 0 = 0; rfl
  | ⟨1, _⟩ => show 0 + 1 * c.val = c.val; omega
  | ⟨2, _⟩ => show 0 + 1 * q.val = q.val; omega

/-- The rectangle of slab 1 of the 5 × 64 × 64 weights sends (0, c, q) to (1, c, q). -/
theorem idx_slab1 (c q : Fin 64) : (r0_2 : Rect S5x64x64).idx (ix3 (0 : Fin 1) c q) = ix3 (1 : Fin 5) c q := by
  funext a; apply Fin.ext
  match a with
  | ⟨0, _⟩ => show 1 + 1 * 0 = 1; rfl
  | ⟨1, _⟩ => show 0 + 1 * c.val = c.val; omega
  | ⟨2, _⟩ => show 0 + 1 * q.val = q.val; omega

/-- The rectangle of slab 2 of the 5 × 64 × 64 weights sends (0, c, q) to (2, c, q). -/
theorem idx_slab2 (c q : Fin 64) : (r0_3 : Rect S5x64x64).idx (ix3 (0 : Fin 1) c q) = ix3 (2 : Fin 5) c q := by
  funext a; apply Fin.ext
  match a with
  | ⟨0, _⟩ => show 2 + 1 * 0 = 2; rfl
  | ⟨1, _⟩ => show 0 + 1 * c.val = c.val; omega
  | ⟨2, _⟩ => show 0 + 1 * q.val = q.val; omega

/-- The rectangle of slab 3 of the 5 × 64 × 64 weights sends (0, c, q) to (3, c, q). -/
theorem idx_slab3 (c q : Fin 64) : (r0_4 : Rect S5x64x64).idx (ix3 (0 : Fin 1) c q) = ix3 (3 : Fin 5) c q := by
  funext a; apply Fin.ext
  match a with
  | ⟨0, _⟩ => show 3 + 1 * 0 = 3; rfl
  | ⟨1, _⟩ => show 0 + 1 * c.val = c.val; omega
  | ⟨2, _⟩ => show 0 + 1 * q.val = q.val; omega

/-- The rectangle of slab 4 of the 5 × 64 × 64 weights sends (0, c, q) to (4, c, q). -/
theorem idx_slab4 (c q : Fin 64) : (r0_5 : Rect S5x64x64).idx (ix3 (0 : Fin 1) c q) = ix3 (4 : Fin 5) c q := by
  funext a; apply Fin.ext
  match a with
  | ⟨0, _⟩ => show 4 + 1 * 0 = 4; rfl
  | ⟨1, _⟩ => show 0 + 1 * c.val = c.val; omega
  | ⟨2, _⟩ => show 0 + 1 * q.val = q.val; omega

/-- Slab `o` of a 5 × 64 × 64 array by its two trailing coordinates. -/
def slabOf (x5 : S5x64x64.Idx → EReal) (o : Fin 5) : Fin 64 → Fin 64 → EReal := fun c q => x5 (ix3 o c q)

/-- THE BODY AT ONE ENTRY: what it stores at (p, q) of the output tile is entry q of the node function of row p of the
    feature tiles. -/
theorem body_apply (x0 x1 x2 x3 x4 : Vec Ideal S10000x64 .f32) (x5 : Vec Ideal S5x64x64 .f32) (x6 : Vec Ideal S1x64 .f32)
    (x7 : Vec Ideal S64x64 .f32) (x8 : Vec Ideal S1x64 .f32) (x9 : Vec Ideal S64x64 .f32) (x10 : Vec Ideal S1x64 .f32)
    (x11 : Vec Ideal S64x64 .f32) (x12 : Vec Ideal S1x64 .f32) (x13 : Vec Ideal S64x64 .f32) (x14 x15 x16 : Vec Ideal S1x64 .f32)
    (p : Fin 10000) (q : Fin 64) :
    k0_pay1 (F := Ideal) (k0_pay4 (k0_pay2 x0 (View.ld x5 r0_1) x1 (View.ld x5 r0_2) x2 (View.ld x5 r0_3) x3 (View.ld x5 r0_4))
        (k0_pay3 x4) (View.ld x5 r0_5) x6 x7 x8 x9 x10 x11 x12) x13 x14 x15 x16 (ix2 p q)
      = node (tileRow x0 p) (tileRow x1 p) (tileRow x2 p) (tileRow x3 p) (tileRow x4 p)
          (slabOf x5 0) (slabOf x5 1) (slabOf x5 2) (slabOf x5 3) (slabOf x5 4) (row64 x6)
          (mat64 x7) (row64 x8) (mat64 x9) (row64 x10) (mat64 x11) (row64 x12) (mat64 x13) (row64 x14)
          (row64 x15) (row64 x16) q := by
  rw [pay1_apply]
  unfold tileRow
  simp only [pay4_apply]
  unfold tileRow slab64
  simp only [pay2_apply, pay3_apply]
  unfold tileRow slab64
  simp only [View.ld, idx_slab0, idx_slab1, idx_slab2, idx_slab3, idx_slab4]
  unfold GnRow.node GnRow.hidden GnRow.cheb slabOf
  rfl

/-! ## From the ten output tiles to the result array -/

/-- The output window's tile is not cut: what a point writes back is the body's tile. -/
theorem cut17 (t : Fin cfg0.N) (X : Vec Ideal S10000x64 .f32) : (cfg0.win 17).cut (grid0.coords t) X = X := rfl

/-- THE RESULT ARRAY: the node function applied to every row of the five feature arrays the region finds, with the weights,
    biases, gain and offset the region finds. -/
def resultArr (c : Dev nD) : S100000x64.Idx → EReal :=
  whole (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5))
    (fun q => (V m c (Pipeline.arrRef spec0 6) : S1x64.Idx → EReal) (ix2 (0 : Fin 1) q)) (V m c (Pipeline.arrRef spec0 7)) (fun q => (V m c (Pipeline.arrRef spec0 8) : S1x64.Idx → EReal) (ix2 (0 : Fin 1) q)) (V m c (Pipeline.arrRef spec0 9))
    (fun q => (V m c (Pipeline.arrRef spec0 10) : S1x64.Idx → EReal) (ix2 (0 : Fin 1) q)) (V m c (Pipeline.arrRef spec0 11)) (fun q => (V m c (Pipeline.arrRef spec0 12) : S1x64.Idx → EReal) (ix2 (0 : Fin 1) q)) (V m c (Pipeline.arrRef spec0 13))
    (fun q => (V m c (Pipeline.arrRef spec0 14) : S1x64.Idx → EReal) (ix2 (0 : Fin 1) q)) (fun q => (V m c (Pipeline.arrRef spec0 15) : S1x64.Idx → EReal) (ix2 (0 : Fin 1) q)) (fun q => (V m c (Pipeline.arrRef spec0 16) : S1x64.Idx → EReal) (ix2 (0 : Fin 1) q))

/-- WHAT POINT `t` WRITES BACK is rows 10000·t … 10000·t + 9999 of the result array. -/
theorem flushed_eq (c : Dev nD) (t : Fin cfg0.N) :
    (dats m 0 c).flushed 17 t = ((cfg0.win 17).blk t).view.read (Elt Ideal) (resultArr m c) := by
  rw [Value.flushed17, cut17]
  funext j
  obtain ⟨p, q, rfl⟩ : ∃ (p : Fin 10000) (q : Fin 64), j = ix2 p q := ⟨j 0, j 1, eq_ix2 j⟩
  have hN : cfg0.N = 10 := N_0
  have hp : t.val * 10000 + p.val < 100000 := by have := t.isLt; have := p.isLt; omega
  rw [View.read_apply, emb_tile17 t p q hp]
  refine Eq.trans ?_ (cast_eq _ _).symm
  unfold resultArr
  rw [whole_ix2]
  unfold out0_17
  rw [View.canon_unit_zero hz2]
  simp only [View.ld_unit_zero (S := S10000x64) hz2, View.ld_unit_zero (S := S1x64) hz2, View.ld_unit_zero (S := S64x64) hz2]
  refine (body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  unfold nodeAt tileRow slabOf mat64 row64
  simp only [read_tile0 m c t _ _ hp, read_tile1 m c t _ _ hp, read_tile2 m c t _ _ hp, read_tile3 m c t _ _ hp, read_tile4 m c t _ _ hp, read_res5 m c t, read_res6 m c t, read_res7 m c t, read_res8 m c t, read_res9 m c t, read_res10 m c t, read_res11 m c t, read_res12 m c t, read_res13 m c t, read_res14 m c t, read_res15 m c t, read_res16 m c t]

/-- An index of the result array is in point `t`'s tile iff each coordinate is in the tile's range on its axis. -/
theorem mem_blk17 (t : Fin cfg0.N) (i : S100000x64.Idx) :
    i ∈ ((cfg0.win 17).blk t).view.set ↔ ∀ a : Fin 2, win0_17.index t a * S10000x64.size a ≤ (i a).val
      ∧ (i a).val < win0_17.index t a * S10000x64.size a + S10000x64.size a := by
  show i ∈ ((View.whole main_v101).slice (win0_17.rect t)).set ↔ _
  rw [View.set_slice_whole, Rect.mem_set_unit]
  exact Iff.rfl

/-- The ten tiles cover the result array: row r is in the tile of point r / 10000. -/
theorem cover17 (i : S100000x64.Idx) : ∃ t : Fin cfg0.N, (cfg0.win 17).flush t = true ∧ i ∈ ((cfg0.win 17).blk t).view.set := by
  have hN : cfg0.N = 10 := N_0
  have h0 : (i 0).val < 100000 := (i 0).isLt
  have h1 : (i 1).val < 64 := (i 1).isLt
  let t : Fin cfg0.N := ⟨(i 0).val / 10000, by rw [hN]; omega⟩
  have ht : t.val = (i 0).val / 10000 := rfl
  have h := idx_tiles t
  refine ⟨t, flush0_17 t, ?_⟩
  rw [mem_blk17]
  intro a
  match a with
  | ⟨0, _⟩ =>
    show win0_17.index t (0 : Fin 2) * 10000 ≤ (i 0).val ∧ (i 0).val < win0_17.index t (0 : Fin 2) * 10000 + 10000
    rw [h.2.2.2.2.2.2.2.2.2.2.1]; omega
  | ⟨1, _⟩ =>
    show win0_17.index t (1 : Fin 2) * 64 ≤ (i 1).val ∧ (i 1).val < win0_17.index t (1 : Fin 2) * 64 + 64
    rw [h.2.2.2.2.2.2.2.2.2.2.2]; omega

/-- So the result array ends holding `resultArr`. -/
theorem final17 (c : Dev nD) : (dats m 0 c).arrAt 17 cfg0.N = resultArr m c :=
  (dats m 0 c).arrAt_eq_of_cover 17 (resultArr m c) (fun t _ => flushed_eq m c t) cover17

/-- The kernel's run, read: the result buffer at `resultArr`, the arguments unchanged. -/
theorem run : θ_run defs (onTc (τ := τ) (main (F := Ideal))) ⟨m, fun _ => 0, ρ⟩ fun r => ∀ c : Dev nD,
      r.2.mem ((c : Thread nD τ).loc main_v101) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final17 m c), (h c).2⟩) (Value.run_blocks m ρ)

end Cert.KernelIdeal.Hand

end
-- ==== Proof.LibFoldStretch.lean ====
/-
  Reading a straight line of host operations a stretch at a time, and the typed references of an inlined function.

  The contents after a line of host operations are a fold of the operations' results over the starting contents. The fold
  over two stretches run one after the other is the fold over the second started from the fold over the first, so a long
  line can be read stretch by stretch, each stretch over an arbitrary starting valuation.

  The operations of a function the compiler inlined are stated over typed references: a value is carried to the buffer's
  own type when written and back when read, along the equation between the two types. Carried there and back it is the
  value it was; with this the composed term of such a stretch loses every inner pair of transports, and only the outermost
  write and the reads of buffers written outside the function keep one.
-/
import Idealize.ShloMosaic.Lib.StableHlo.Run

noncomputable section

namespace Cert.LibFoldStretch

open Idealize.ShloMosaic Idealize.ShloMosaic.StableHlo

variable {τ : Topo} {sig : RefSig} {Val : EltTy → Type}

/-- The fold over two stretches run one after the other is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's buffer and back are the contents. -/
theorem ofBuf_toBuf {T : BufTy} (x : TRef sig T) (v : T.Contents Val) : x.ofBuf (x.toBuf v) = v := by
  obtain ⟨r, h1, h2, h3⟩ := x
  subst h1
  rfl

/-- Contents read from a typed reference's buffer and written back are the contents. -/
theorem toBuf_ofBuf {T : BufTy} (x : TRef sig T) (v : x.ref.ty.Contents Val) : x.toBuf (x.ofBuf v) = v := by
  obtain ⟨r, h1, h2, h3⟩ := x
  subst h1
  rfl

end Cert.LibFoldStretch

end
-- ==== Proof.KernelHost.lean ====
/-
  What the kernel's program computes before the region, against the reference's stages.

  Before the region the kernel's program runs the same chain as the reference does: the edge weights from the degrees, and
  four propagations along the edges (a gather of rows, a product with the edge weights, a scatter-add into the destination
  rows), each but the first doubled and reduced by the feature matrix two steps back. The chain is never opened here: the four
  arrays it leaves for the region are the reference's four stages applied to the same two arguments, operation for
  operation. The host operations come in five stretches (the two selections that guard the reciprocal square root of the
  degree are functions of their own); each stretch is read as a function of arbitrary starting contents, and the contents after one
  stretch enter the next as the reference's stages, by name. The seven bias, gain and offset rows the region reads are the length-64 arguments viewed as [1, 64] arrays.
-/
import proofs.«140817_j45509473468797_2_alg».proof.Proof.Gen.KernelIdeal.Frame
import proofs.«140817_j45509473468797_2_alg».proof.Proof.RefReadP
import proofs.«140817_j45509473468797_2_alg».proof.Proof.LibFoldStretch
import Idealize.ShloMosaic.Lib.ValueLayout

noncomputable section

open Idealize.ShloMosaic Idealize.ShloMosaic.TcCoe Idealize.SL.Sem Idealize.ShloMosaic.StableHlo

namespace Cert.KernelIdeal.HostSide

open Cert.KernelIdeal Cert.KernelIdeal.Gen Idealize.ShloMosaic.ValueIdx

variable (m : (ℓ : Loc nD τ sig) → Buf (Elt Ideal) ℓ)

/-! ## The typed references of the two inlined selections carry their contents unchanged

Each is the identity: the buffer's type in the signature is the value's type. -/

theorem ofBuf_main_cst_2 (v : (⟨S_, .f32⟩ : BufTy).Contents (Elt Ideal)) :
    (StableHlo.TRef.of main_cst_2 : StableHlo.TRef sig ⟨S_, .f32⟩).ofBuf (Val := Elt Ideal) v = v := rfl
theorem toBuf_main_cst_2 (v : (⟨S_, .f32⟩ : BufTy).Contents (Elt Ideal)) :
    (StableHlo.TRef.of main_cst_2 : StableHlo.TRef sig ⟨S_, .f32⟩).toBuf (Val := Elt Ideal) v = v := rfl
theorem ofBuf_main_call0_v0 (v : (⟨S_, .f32⟩ : BufTy).Contents (Elt Ideal)) :
    (StableHlo.TRef.of main_call0_v0 : StableHlo.TRef sig ⟨S_, .f32⟩).ofBuf (Val := Elt Ideal) v = v := rfl
theorem toBuf_main_call0_v0 (v : (⟨S_, .f32⟩ : BufTy).Contents (Elt Ideal)) :
    (StableHlo.TRef.of main_call0_v0 : StableHlo.TRef sig ⟨S_, .f32⟩).toBuf (Val := Elt Ideal) v = v := rfl
theorem ofBuf_main_call0_v1 (v : (⟨S100000, .f32⟩ : BufTy).Contents (Elt Ideal)) :
    (StableHlo.TRef.of main_call0_v1 : StableHlo.TRef sig ⟨S100000, .f32⟩).ofBuf (Val := Elt Ideal) v = v := rfl
theorem toBuf_main_call0_v1 (v : (⟨S100000, .f32⟩ : BufTy).Contents (Elt Ideal)) :
    (StableHlo.TRef.of main_call0_v1 : StableHlo.TRef sig ⟨S100000, .f32⟩).toBuf (Val := Elt Ideal) v = v := rfl
theorem ofBuf_main_v12 (v : (⟨S100000, .i1⟩ : BufTy).Contents (Elt Ideal)) :
    (StableHlo.TRef.of main_v12 : StableHlo.TRef sig ⟨S100000, .i1⟩).ofBuf (Val := Elt Ideal) v = v := rfl
theorem toBuf_main_v12 (v : (⟨S100000, .i1⟩ : BufTy).Contents (Elt Ideal)) :
    (StableHlo.TRef.of main_v12 : StableHlo.TRef sig ⟨S100000, .i1⟩).toBuf (Val := Elt Ideal) v = v := rfl
theorem ofBuf_main_v8 (v : (⟨S100000, .f32⟩ : BufTy).Contents (Elt Ideal)) :
    (StableHlo.TRef.of main_v8 : StableHlo.TRef sig ⟨S100000, .f32⟩).ofBuf (Val := Elt Ideal) v = v := rfl
theorem toBuf_main_v8 (v : (⟨S100000, .f32⟩ : BufTy).Contents (Elt Ideal)) :
    (StableHlo.TRef.of main_v8 : StableHlo.TRef sig ⟨S100000, .f32⟩).toBuf (Val := Elt Ideal) v = v := rfl
theorem ofBuf_main_v13 (v : (⟨S100000, .f32⟩ : BufTy).Contents (Elt Ideal)) :
    (StableHlo.TRef.of main_v13 : StableHlo.TRef sig ⟨S100000, .f32⟩).ofBuf (Val := Elt Ideal) v = v := rfl
theorem toBuf_main_v13 (v : (⟨S100000, .f32⟩ : BufTy).Contents (Elt Ideal)) :
    (StableHlo.TRef.of main_v13 : StableHlo.TRef sig ⟨S100000, .f32⟩).toBuf (Val := Elt Ideal) v = v := rfl
theorem ofBuf_main_cst_3 (v : (⟨S_, .f32⟩ : BufTy).Contents (Elt Ideal)) :
    (StableHlo.TRef.of main_cst_3 : StableHlo.TRef sig ⟨S_, .f32⟩).ofBuf (Val := Elt Ideal) v = v := rfl
theorem toBuf_main_cst_3 (v : (⟨S_, .f32⟩ : BufTy).Contents (Elt Ideal)) :
    (StableHlo.TRef.of main_cst_3 : StableHlo.TRef sig ⟨S_, .f32⟩).toBuf (Val := Elt Ideal) v = v := rfl
theorem ofBuf_main_call1_v0 (v : (⟨S_, .f32⟩ : BufTy).Contents (Elt Ideal)) :
    (StableHlo.TRef.of main_call1_v0 : StableHlo.TRef sig ⟨S_, .f32⟩).ofBuf (Val := Elt Ideal) v = v := rfl
theorem toBuf_main_call1_v0 (v : (⟨S_, .f32⟩ : BufTy).Contents (Elt Ideal)) :
    (StableHlo.TRef.of main_call1_v0 : StableHlo.TRef sig ⟨S_, .f32⟩).toBuf (Val := Elt Ideal) v = v := rfl
theorem ofBuf_main_call1_v1 (v : (⟨S100000, .f32⟩ : BufTy).Contents (Elt Ideal)) :
    (StableHlo.TRef.of main_call1_v1 : StableHlo.TRef sig ⟨S100000, .f32⟩).ofBuf (Val := Elt Ideal) v = v := rfl
theorem toBuf_main_call1_v1 (v : (⟨S100000, .f32⟩ : BufTy).Contents (Elt Ideal)) :
    (StableHlo.TRef.of main_call1_v1 : StableHlo.TRef sig ⟨S100000, .f32⟩).toBuf (Val := Elt Ideal) v = v := rfl
theorem ofBuf_main_v10 (v : (⟨S100000, .i1⟩ : BufTy).Contents (Elt Ideal)) :
    (StableHlo.TRef.of main_v10 : StableHlo.TRef sig ⟨S100000, .i1⟩).ofBuf (Val := Elt Ideal) v = v := rfl
theorem toBuf_main_v10 (v : (⟨S100000, .i1⟩ : BufTy).Contents (Elt Ideal)) :
    (StableHlo.TRef.of main_v10 : StableHlo.TRef sig ⟨S100000, .i1⟩).toBuf (Val := Elt Ideal) v = v := rfl
theorem ofBuf_main_v14 (v : (⟨S100000, .f32⟩ : BufTy).Contents (Elt Ideal)) :
    (StableHlo.TRef.of main_v14 : StableHlo.TRef sig ⟨S100000, .f32⟩).ofBuf (Val := Elt Ideal) v = v := rfl
theorem toBuf_main_v14 (v : (⟨S100000, .f32⟩ : BufTy).Contents (Elt Ideal)) :
    (StableHlo.TRef.of main_v14 : StableHlo.TRef sig ⟨S100000, .f32⟩).toBuf (Val := Elt Ideal) v = v := rfl
theorem ofBuf_main_v15 (v : (⟨S100000, .f32⟩ : BufTy).Contents (Elt Ideal)) :
    (StableHlo.TRef.of main_v15 : StableHlo.TRef sig ⟨S100000, .f32⟩).ofBuf (Val := Elt Ideal) v = v := rfl
theorem toBuf_main_v15 (v : (⟨S100000, .f32⟩ : BufTy).Contents (Elt Ideal)) :
    (StableHlo.TRef.of main_v15 : StableHlo.TRef sig ⟨S100000, .f32⟩).toBuf (Val := Elt Ideal) v = v := rfl

/-! ## The first stretch against the reference's stages -/

set_option maxRecDepth 65536 in
set_option maxHeartbeats 100000000 in
theorem l0_main_v1 (c : Dev nD) :
    (after (hostOps0 (F := Ideal)) (fun b => m (c, b)) (Proc.devRef .tc main_v1) : S1600000.Idx → BitVec 32)
      = Cert.ReferenceIdeal.ReadP.val_main_v1 (F := Ideal) (m ((c : Thread nD τ).loc main_arg1)) := by
  simp only [hostOps0]
  after_results_simp
  rfl

set_option maxRecDepth 65536 in
set_option maxHeartbeats 100000000 in
theorem l0_main_v3 (c : Dev nD) :
    (after (hostOps0 (F := Ideal)) (fun b => m (c, b)) (Proc.devRef .tc main_v3) : S1600000.Idx → BitVec 32)
      = Cert.ReferenceIdeal.ReadP.val_main_v3 (F := Ideal) (m ((c : Thread nD τ).loc main_arg1)) := by
  simp only [hostOps0]
  after_results_simp
  rfl

set_option maxRecDepth 65536 in
set_option maxHeartbeats 100000000 in
theorem l0_main_v5 (c : Dev nD) :
    (after (hostOps0 (F := Ideal)) (fun b => m (c, b)) (Proc.devRef .tc main_v5) : S1600000.Idx → EReal)
      = Cert.ReferenceIdeal.ReadP.val_main_v5 (F := Ideal) (m ((c : Thread nD τ).loc main_arg1)) := by
  simp only [hostOps0]
  after_results_simp
  rfl

set_option maxRecDepth 65536 in
set_option maxHeartbeats 100000000 in
theorem l0_main_v8 (c : Dev nD) :
    (after (hostOps0 (F := Ideal)) (fun b => m (c, b)) (Proc.devRef .tc main_v8) : S100000.Idx → EReal)
      = Cert.ReferenceIdeal.ReadP.val_main_v8 (F := Ideal) (m ((c : Thread nD τ).loc main_arg1)) := by
  simp only [hostOps0]
  after_results_simp
  rfl

set_option maxRecDepth 65536 in
set_option maxHeartbeats 100000000 in
theorem l0_main_v10 (c : Dev nD) :
    (after (hostOps0 (F := Ideal)) (fun b => m (c, b)) (Proc.devRef .tc main_v10) : S100000.Idx → BitVec 1)
      = Cert.ReferenceIdeal.ReadP.val_main_v10 (F := Ideal) (m ((c : Thread nD τ).loc main_arg1)) := by
  simp only [hostOps0]
  after_results_simp
  rfl

set_option maxRecDepth 65536 in
set_option maxHeartbeats 100000000 in
theorem l0_main_v12 (c : Dev nD) :
    (after (hostOps0 (F := Ideal)) (fun b => m (c, b)) (Proc.devRef .tc main_v12) : S100000.Idx → BitVec 1)
      = Cert.ReferenceIdeal.ReadP.val_main_v12 (F := Ideal) (m ((c : Thread nD τ).loc main_arg1)) := by
  simp only [hostOps0]
  after_results_simp
  rfl

set_option maxRecDepth 65536 in
set_option maxHeartbeats 100000000 in
theorem l0_main_cst_2 (c : Dev nD) :
    (after (hostOps0 (F := Ideal)) (fun b => m (c, b)) (Proc.devRef .tc main_cst_2) : S_.Idx → EReal) = Cert.ReferenceIdeal.ReadP.val_main_cst_2 (F := Ideal) := by
  simp only [hostOps0]
  after_results_simp
  rfl

set_option maxRecDepth 65536 in
set_option maxHeartbeats 100000000 in
theorem l0_main_arg0 (c : Dev nD) :
    after (hostOps0 (F := Ideal)) (fun b => m (c, b)) (Proc.devRef .tc main_arg0) = m ((c : Thread nD τ).loc main_arg0) := by
  simp only [hostOps0]
  after_results_simp <;> rfl

/-! ## Buffers a stretch does not write keep their contents -/

theorem pass_hostOps0_1_main_v1 (W : Valuation τ sig (Elt Ideal)) :
    after (hostOps0_1 (F := Ideal)) W (Proc.devRef .tc main_v1) = W (Proc.devRef .tc main_v1) := by
  simp only [hostOps0_1]
  after_results_simp <;> rfl

theorem pass_hostOps0_1_main_v3 (W : Valuation τ sig (Elt Ideal)) :
    after (hostOps0_1 (F := Ideal)) W (Proc.devRef .tc main_v3) = W (Proc.devRef .tc main_v3) := by
  simp only [hostOps0_1]
  after_results_simp <;> rfl

theorem pass_hostOps0_1_main_v5 (W : Valuation τ sig (Elt Ideal)) :
    after (hostOps0_1 (F := Ideal)) W (Proc.devRef .tc main_v5) = W (Proc.devRef .tc main_v5) := by
  simp only [hostOps0_1]
  after_results_simp <;> rfl

theorem pass_hostOps0_1_main_v10 (W : Valuation τ sig (Elt Ideal)) :
    after (hostOps0_1 (F := Ideal)) W (Proc.devRef .tc main_v10) = W (Proc.devRef .tc main_v10) := by
  simp only [hostOps0_1]
  after_results_simp <;> rfl

theorem pass_hostOps0_1_main_arg0 (W : Valuation τ sig (Elt Ideal)) :
    after (hostOps0_1 (F := Ideal)) W (Proc.devRef .tc main_arg0) = W (Proc.devRef .tc main_arg0) := by
  simp only [hostOps0_1]
  after_results_simp <;> rfl

theorem pass_hostOps0_2_main_v1 (W : Valuation τ sig (Elt Ideal)) :
    after (hostOps0_2 (F := Ideal)) W (Proc.devRef .tc main_v1) = W (Proc.devRef .tc main_v1) := by
  simp only [hostOps0_2]
  after_results_simp <;> rfl

theorem pass_hostOps0_2_main_v3 (W : Valuation τ sig (Elt Ideal)) :
    after (hostOps0_2 (F := Ideal)) W (Proc.devRef .tc main_v3) = W (Proc.devRef .tc main_v3) := by
  simp only [hostOps0_2]
  after_results_simp <;> rfl

theorem pass_hostOps0_2_main_v5 (W : Valuation τ sig (Elt Ideal)) :
    after (hostOps0_2 (F := Ideal)) W (Proc.devRef .tc main_v5) = W (Proc.devRef .tc main_v5) := by
  simp only [hostOps0_2]
  after_results_simp <;> rfl

theorem pass_hostOps0_2_main_v10 (W : Valuation τ sig (Elt Ideal)) :
    after (hostOps0_2 (F := Ideal)) W (Proc.devRef .tc main_v10) = W (Proc.devRef .tc main_v10) := by
  simp only [hostOps0_2]
  after_results_simp <;> rfl

theorem pass_hostOps0_2_main_arg0 (W : Valuation τ sig (Elt Ideal)) :
    after (hostOps0_2 (F := Ideal)) W (Proc.devRef .tc main_arg0) = W (Proc.devRef .tc main_arg0) := by
  simp only [hostOps0_2]
  after_results_simp <;> rfl

theorem pass_hostOps0_3_main_v1 (W : Valuation τ sig (Elt Ideal)) :
    after (hostOps0_3 (F := Ideal)) W (Proc.devRef .tc main_v1) = W (Proc.devRef .tc main_v1) := by
  simp only [hostOps0_3]
  after_results_simp <;> rfl

theorem pass_hostOps0_3_main_v3 (W : Valuation τ sig (Elt Ideal)) :
    after (hostOps0_3 (F := Ideal)) W (Proc.devRef .tc main_v3) = W (Proc.devRef .tc main_v3) := by
  simp only [hostOps0_3]
  after_results_simp <;> rfl

theorem pass_hostOps0_3_main_v5 (W : Valuation τ sig (Elt Ideal)) :
    after (hostOps0_3 (F := Ideal)) W (Proc.devRef .tc main_v5) = W (Proc.devRef .tc main_v5) := by
  simp only [hostOps0_3]
  after_results_simp <;> rfl

theorem pass_hostOps0_3_main_arg0 (W : Valuation τ sig (Elt Ideal)) :
    after (hostOps0_3 (F := Ideal)) W (Proc.devRef .tc main_arg0) = W (Proc.devRef .tc main_arg0) := by
  simp only [hostOps0_3]
  after_results_simp <;> rfl

/-! ## The selections and the reciprocal square root, over any contents -/

set_option maxRecDepth 65536 in
set_option maxHeartbeats 100000000 in
/-- The first selection, over any contents: where the mask holds the value, elsewhere the repeated scalar. -/
theorem sel1 (W : Valuation τ sig (Elt Ideal)) :
    (after (hostOps0_1 (F := Ideal)) W (Proc.devRef .tc main_v13) : S100000.Idx → EReal)
      = select (W (Proc.devRef .tc main_v12) : S100000.Idx → BitVec 1) (W (Proc.devRef .tc main_v8) : S100000.Idx → EReal)
          (broadcastInDim S100000 ![] bcast_S_S100000 (W (Proc.devRef .tc main_cst_2) : S_.Idx → EReal)) := by
  simp only [hostOps0_1]
  after_results_simp
  first | rfl | (simp only [ofBuf_main_cst_2, toBuf_main_cst_2, ofBuf_main_call0_v0, toBuf_main_call0_v0, ofBuf_main_call0_v1, toBuf_main_call0_v1, ofBuf_main_v12, toBuf_main_v12, ofBuf_main_v8, toBuf_main_v8, ofBuf_main_v13, toBuf_main_v13, ofBuf_main_cst_3, toBuf_main_cst_3, ofBuf_main_call1_v0, toBuf_main_call1_v0, ofBuf_main_call1_v1, toBuf_main_call1_v1, ofBuf_main_v10, toBuf_main_v10, ofBuf_main_v14, toBuf_main_v14, ofBuf_main_v15, toBuf_main_v15]; rfl)

set_option maxRecDepth 65536 in
set_option maxHeartbeats 100000000 in
/-- The reciprocal square root, over any contents. -/
theorem rsq2 (W : Valuation τ sig (Elt Ideal)) :
    @Eq (S100000.Idx → EReal) (after (hostOps0_2 (F := Ideal)) W (Proc.devRef .tc main_v14))
      (Host.rsqrt (F := Ideal) (s := S100000) (φ := .f32) (W (Proc.devRef .tc main_v13))) := by
  simp only [hostOps0_2]
  after_results_simp <;> rfl

set_option maxRecDepth 65536 in
set_option maxHeartbeats 100000000 in
/-- The zero the second selection falls back to. -/
theorem zero2 (W : Valuation τ sig (Elt Ideal)) :
    (after (hostOps0_2 (F := Ideal)) W (Proc.devRef .tc main_cst_3) : S_.Idx → EReal) = constant (F := Ideal) S_ .f32 0x00000000#32 := by
  simp only [hostOps0_2]
  after_results_simp <;> rfl

set_option maxRecDepth 65536 in
set_option maxHeartbeats 100000000 in
/-- The second selection, over any contents. -/
theorem sel3 (W : Valuation τ sig (Elt Ideal)) :
    (after (hostOps0_3 (F := Ideal)) W (Proc.devRef .tc main_v15) : S100000.Idx → EReal)
      = select (W (Proc.devRef .tc main_v10) : S100000.Idx → BitVec 1) (W (Proc.devRef .tc main_v14) : S100000.Idx → EReal)
          (broadcastInDim S100000 ![] bcast_S_S100000 (W (Proc.devRef .tc main_cst_3) : S_.Idx → EReal)) := by
  simp only [hostOps0_3]
  after_results_simp
  first | rfl | (simp only [ofBuf_main_cst_2, toBuf_main_cst_2, ofBuf_main_call0_v0, toBuf_main_call0_v0, ofBuf_main_call0_v1, toBuf_main_call0_v1, ofBuf_main_v12, toBuf_main_v12, ofBuf_main_v8, toBuf_main_v8, ofBuf_main_v13, toBuf_main_v13, ofBuf_main_cst_3, toBuf_main_cst_3, ofBuf_main_call1_v0, toBuf_main_call1_v0, ofBuf_main_call1_v1, toBuf_main_call1_v1, ofBuf_main_v10, toBuf_main_v10, ofBuf_main_v14, toBuf_main_v14, ofBuf_main_v15, toBuf_main_v15]; rfl)

/-! ## The last stretch, from contents that hold the reference's earlier stages -/

set_option maxRecDepth 65536 in
set_option maxHeartbeats 100000000 in
/-- The first propagated feature array out of the last stretch, from contents that hold the reference's earlier stages. -/
theorem tx1_of (W : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal))
    (h0 : (W (Proc.devRef .tc main_arg0) : S100000x64.Idx → EReal) = x0)
    (h1 : (W (Proc.devRef .tc main_v1) : S1600000.Idx → BitVec 32) = Cert.ReferenceIdeal.ReadP.val_main_v1 (F := Ideal) x1)
    (h3 : (W (Proc.devRef .tc main_v3) : S1600000.Idx → BitVec 32) = Cert.ReferenceIdeal.ReadP.val_main_v3 (F := Ideal) x1)
    (h5 : (W (Proc.devRef .tc main_v5) : S1600000.Idx → EReal) = Cert.ReferenceIdeal.ReadP.val_main_v5 (F := Ideal) x1)
    (h15 : (W (Proc.devRef .tc main_v15) : S100000.Idx → EReal) = Cert.ReferenceIdeal.ReadP.val_main_v15 (F := Ideal) x1) :
    (after (hostOps0_4 (F := Ideal)) W (Proc.devRef .tc main_v45) : S100000x64.Idx → EReal) = Cert.ReferenceIdeal.ReadP.val_main_v48 (F := Ideal) x0 x1 := by
  simp only [hostOps0_4]
  after_results_simp
  simp only [h0, h1, h3, h5, h15]
  rfl

set_option maxRecDepth 65536 in
set_option maxHeartbeats 100000000 in
/-- The second propagated feature array out of the last stretch, from contents that hold the reference's earlier stages. -/
theorem tx2_of (W : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal))
    (h0 : (W (Proc.devRef .tc main_arg0) : S100000x64.Idx → EReal) = x0)
    (h1 : (W (Proc.devRef .tc main_v1) : S1600000.Idx → BitVec 32) = Cert.ReferenceIdeal.ReadP.val_main_v1 (F := Ideal) x1)
    (h3 : (W (Proc.devRef .tc main_v3) : S1600000.Idx → BitVec 32) = Cert.ReferenceIdeal.ReadP.val_main_v3 (F := Ideal) x1)
    (h5 : (W (Proc.devRef .tc main_v5) : S1600000.Idx → EReal) = Cert.ReferenceIdeal.ReadP.val_main_v5 (F := Ideal) x1)
    (h15 : (W (Proc.devRef .tc main_v15) : S100000.Idx → EReal) = Cert.ReferenceIdeal.ReadP.val_main_v15 (F := Ideal) x1) :
    (after (hostOps0_4 (F := Ideal)) W (Proc.devRef .tc main_v61) : S100000x64.Idx → EReal) = Cert.ReferenceIdeal.ReadP.val_main_v68 (F := Ideal) x0 x1 := by
  simp only [hostOps0_4]
  after_results_simp
  simp only [h0, h1, h3, h5, h15]
  rfl

set_option maxRecDepth 65536 in
set_option maxHeartbeats 100000000 in
/-- The third propagated feature array out of the last stretch, from contents that hold the reference's earlier stages. -/
theorem tx3_of (W : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal))
    (h0 : (W (Proc.devRef .tc main_arg0) : S100000x64.Idx → EReal) = x0)
    (h1 : (W (Proc.devRef .tc main_v1) : S1600000.Idx → BitVec 32) = Cert.ReferenceIdeal.ReadP.val_main_v1 (F := Ideal) x1)
    (h3 : (W (Proc.devRef .tc main_v3) : S1600000.Idx → BitVec 32) = Cert.ReferenceIdeal.ReadP.val_main_v3 (F := Ideal) x1)
    (h5 : (W (Proc.devRef .tc main_v5) : S1600000.Idx → EReal) = Cert.ReferenceIdeal.ReadP.val_main_v5 (F := Ideal) x1)
    (h15 : (W (Proc.devRef .tc main_v15) : S100000.Idx → EReal) = Cert.ReferenceIdeal.ReadP.val_main_v15 (F := Ideal) x1) :
    (after (hostOps0_4 (F := Ideal)) W (Proc.devRef .tc main_v77) : S100000x64.Idx → EReal) = Cert.ReferenceIdeal.ReadP.val_main_v88 (F := Ideal) x0 x1 := by
  simp only [hostOps0_4]
  after_results_simp
  simp only [h0, h1, h3, h5, h15]
  rfl

set_option maxRecDepth 65536 in
set_option maxHeartbeats 100000000 in
/-- The fourth propagated feature array out of the last stretch, from contents that hold the reference's earlier stages. -/
theorem tx4_of (W : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal))
    (h0 : (W (Proc.devRef .tc main_arg0) : S100000x64.Idx → EReal) = x0)
    (h1 : (W (Proc.devRef .tc main_v1) : S1600000.Idx → BitVec 32) = Cert.ReferenceIdeal.ReadP.val_main_v1 (F := Ideal) x1)
    (h3 : (W (Proc.devRef .tc main_v3) : S1600000.Idx → BitVec 32) = Cert.ReferenceIdeal.ReadP.val_main_v3 (F := Ideal) x1)
    (h5 : (W (Proc.devRef .tc main_v5) : S1600000.Idx → EReal) = Cert.ReferenceIdeal.ReadP.val_main_v5 (F := Ideal) x1)
    (h15 : (W (Proc.devRef .tc main_v15) : S100000.Idx → EReal) = Cert.ReferenceIdeal.ReadP.val_main_v15 (F := Ideal) x1) :
    (after (hostOps0_4 (F := Ideal)) W (Proc.devRef .tc main_v93) : S100000x64.Idx → EReal) = Cert.ReferenceIdeal.ReadP.val_main_v108 (F := Ideal) x0 x1 := by
  simp only [hostOps0_4]
  after_results_simp
  simp only [h0, h1, h3, h5, h15]
  rfl

/-! ## The four propagated feature arrays -/

/-- The contents after the first four stretches of host operations: everything up to the second selection. -/
def W4 (c : Dev nD) : Valuation τ sig (Elt Ideal) :=
  after (hostOps0_3 (F := Ideal)) (after (hostOps0_2 (F := Ideal)) (after (hostOps0_1 (F := Ideal))
    (after (hostOps0 (F := Ideal)) (fun b => m (c, b)))))

theorem W4_arg0 (c : Dev nD) : (W4 m c (Proc.devRef .tc main_arg0) : S100000x64.Idx → EReal) = m ((c : Thread nD τ).loc main_arg0) := by
  unfold W4
  rw [pass_hostOps0_3_main_arg0, pass_hostOps0_2_main_arg0, pass_hostOps0_1_main_arg0]
  exact l0_main_arg0 m c

theorem W4_main_v1 (c : Dev nD) :
    (W4 m c (Proc.devRef .tc main_v1) : S1600000.Idx → BitVec 32) = Cert.ReferenceIdeal.ReadP.val_main_v1 (F := Ideal) (m ((c : Thread nD τ).loc main_arg1)) := by
  unfold W4
  rw [pass_hostOps0_3_main_v1, pass_hostOps0_2_main_v1, pass_hostOps0_1_main_v1]
  exact l0_main_v1 m c

theorem W4_main_v3 (c : Dev nD) :
    (W4 m c (Proc.devRef .tc main_v3) : S1600000.Idx → BitVec 32) = Cert.ReferenceIdeal.ReadP.val_main_v3 (F := Ideal) (m ((c : Thread nD τ).loc main_arg1)) := by
  unfold W4
  rw [pass_hostOps0_3_main_v3, pass_hostOps0_2_main_v3, pass_hostOps0_1_main_v3]
  exact l0_main_v3 m c

theorem W4_main_v5 (c : Dev nD) :
    (W4 m c (Proc.devRef .tc main_v5) : S1600000.Idx → EReal) = Cert.ReferenceIdeal.ReadP.val_main_v5 (F := Ideal) (m ((c : Thread nD τ).loc main_arg1)) := by
  unfold W4
  rw [pass_hostOps0_3_main_v5, pass_hostOps0_2_main_v5, pass_hostOps0_1_main_v5]
  exact l0_main_v5 m c

set_option maxRecDepth 65536 in
set_option maxHeartbeats 100000000 in
/-- The degree's reciprocal square root (zero where the degree is zero), as the reference's stage. -/
theorem W4_main_v15 (c : Dev nD) :
    (W4 m c (Proc.devRef .tc main_v15) : S100000.Idx → EReal) = Cert.ReferenceIdeal.ReadP.val_main_v15 (F := Ideal) (m ((c : Thread nD τ).loc main_arg1)) := by
  unfold W4
  rw [sel3, pass_hostOps0_2_main_v10, pass_hostOps0_1_main_v10, l0_main_v10, rsq2, sel1, l0_main_v12, l0_main_v8,
    l0_main_cst_2, zero2]
  rfl

set_option maxRecDepth 65536 in
set_option maxHeartbeats 100000000 in
/-- The first propagated feature array the region finds is the reference's stage of the same arguments. -/
theorem tx1_eq (c : Dev nD) :
    (V m c main_v45 : S100000x64.Idx → EReal)
      = Cert.ReferenceIdeal.ReadP.val_main_v48 (F := Ideal) (m ((c : Thread nD τ).loc main_arg0)) (m ((c : Thread nD τ).loc main_arg1)) := by
  have e : (V m c main_v45 : S100000x64.Idx → EReal) = after (hostOps0_4 (F := Ideal)) (W4 m c) (Proc.devRef .tc main_v45) := by
    unfold W4
    dsimp only [V]
    simp only [List.flatten_cons, List.flatten_nil, List.append_nil]
    rw [Cert.LibFoldStretch.after_append, Cert.LibFoldStretch.after_append, Cert.LibFoldStretch.after_append,
      Cert.LibFoldStretch.after_append]
  rw [e]
  exact tx1_of (W4 m c) _ _ (W4_arg0 m c) (W4_main_v1 m c) (W4_main_v3 m c) (W4_main_v5 m c) (W4_main_v15 m c)

set_option maxRecDepth 65536 in
set_option maxHeartbeats 100000000 in
/-- The second propagated feature array the region finds is the reference's stage of the same arguments. -/
theorem tx2_eq (c : Dev nD) :
    (V m c main_v61 : S100000x64.Idx → EReal)
      = Cert.ReferenceIdeal.ReadP.val_main_v68 (F := Ideal) (m ((c : Thread nD τ).loc main_arg0)) (m ((c : Thread nD τ).loc main_arg1)) := by
  have e : (V m c main_v61 : S100000x64.Idx → EReal) = after (hostOps0_4 (F := Ideal)) (W4 m c) (Proc.devRef .tc main_v61) := by
    unfold W4
    dsimp only [V]
    simp only [List.flatten_cons, List.flatten_nil, List.append_nil]
    rw [Cert.LibFoldStretch.after_append, Cert.LibFoldStretch.after_append, Cert.LibFoldStretch.after_append,
      Cert.LibFoldStretch.after_append]
  rw [e]
  exact tx2_of (W4 m c) _ _ (W4_arg0 m c) (W4_main_v1 m c) (W4_main_v3 m c) (W4_main_v5 m c) (W4_main_v15 m c)

set_option maxRecDepth 65536 in
set_option maxHeartbeats 100000000 in
/-- The third propagated feature array the region finds is the reference's stage of the same arguments. -/
theorem tx3_eq (c : Dev nD) :
    (V m c main_v77 : S100000x64.Idx → EReal)
      = Cert.ReferenceIdeal.ReadP.val_main_v88 (F := Ideal) (m ((c : Thread nD τ).loc main_arg0)) (m ((c : Thread nD τ).loc main_arg1)) := by
  have e : (V m c main_v77 : S100000x64.Idx → EReal) = after (hostOps0_4 (F := Ideal)) (W4 m c) (Proc.devRef .tc main_v77) := by
    unfold W4
    dsimp only [V]
    simp only [List.flatten_cons, List.flatten_nil, List.append_nil]
    rw [Cert.LibFoldStretch.after_append, Cert.LibFoldStretch.after_append, Cert.LibFoldStretch.after_append,
      Cert.LibFoldStretch.after_append]
  rw [e]
  exact tx3_of (W4 m c) _ _ (W4_arg0 m c) (W4_main_v1 m c) (W4_main_v3 m c) (W4_main_v5 m c) (W4_main_v15 m c)

set_option maxRecDepth 65536 in
set_option maxHeartbeats 100000000 in
/-- The fourth propagated feature array the region finds is the reference's stage of the same arguments. -/
theorem tx4_eq (c : Dev nD) :
    (V m c main_v93 : S100000x64.Idx → EReal)
      = Cert.ReferenceIdeal.ReadP.val_main_v108 (F := Ideal) (m ((c : Thread nD τ).loc main_arg0)) (m ((c : Thread nD τ).loc main_arg1)) := by
  have e : (V m c main_v93 : S100000x64.Idx → EReal) = after (hostOps0_4 (F := Ideal)) (W4 m c) (Proc.devRef .tc main_v93) := by
    unfold W4
    dsimp only [V]
    simp only [List.flatten_cons, List.flatten_nil, List.append_nil]
    rw [Cert.LibFoldStretch.after_append, Cert.LibFoldStretch.after_append, Cert.LibFoldStretch.after_append,
      Cert.LibFoldStretch.after_append]
  rw [e]
  exact tx4_of (W4 m c) _ _ (W4_arg0 m c) (W4_main_v1 m c) (W4_main_v3 m c) (W4_main_v5 m c) (W4_main_v15 m c)

/-! ## The bias, gain and offset rows -/

set_option maxRecDepth 65536 in
set_option maxHeartbeats 100000000 in
/-- The [1, 64] row the region finds at `main_v94` is the argument `main_arg3`. -/
theorem row_main_v94 (c : Dev nD) (q : Fin 64) :
    (V m c main_v94 : S1x64.Idx → EReal) (ix2 (0 : Fin 1) q) = (m ((c : Thread nD τ).loc main_arg3) : S64.Idx → EReal) (ix1 q) := by
  have e : (V m c main_v94 : S1x64.Idx → EReal) = shapeCast S1x64 (m ((c : Thread nD τ).loc main_arg3) : S64.Idx → EReal) shapeCasts_S64_S1x64 := by
    dsimp only [V]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ _ _

set_option maxRecDepth 65536 in
set_option maxHeartbeats 100000000 in
/-- The [1, 64] row the region finds at `main_v95` is the argument `main_arg5`. -/
theorem row_main_v95 (c : Dev nD) (q : Fin 64) :
    (V m c main_v95 : S1x64.Idx → EReal) (ix2 (0 : Fin 1) q) = (m ((c : Thread nD τ).loc main_arg5) : S64.Idx → EReal) (ix1 q) := by
  have e : (V m c main_v95 : S1x64.Idx → EReal) = shapeCast S1x64 (m ((c : Thread nD τ).loc main_arg5) : S64.Idx → EReal) shapeCasts_S64_S1x64 := by
    dsimp only [V]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ _ _

set_option maxRecDepth 65536 in
set_option maxHeartbeats 100000000 in
/-- The [1, 64] row the region finds at `main_v96` is the argument `main_arg7`. -/
theorem row_main_v96 (c : Dev nD) (q : Fin 64) :
    (V m c main_v96 : S1x64.Idx → EReal) (ix2 (0 : Fin 1) q) = (m ((c : Thread nD τ).loc main_arg7) : S64.Idx → EReal) (ix1 q) := by
  have e : (V m c main_v96 : S1x64.Idx → EReal) = shapeCast S1x64 (m ((c : Thread nD τ).loc main_arg7) : S64.Idx → EReal) shapeCasts_S64_S1x64 := by
    dsimp only [V]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ _ _

set_option maxRecDepth 65536 in
set_option maxHeartbeats 100000000 in
/-- The [1, 64] row the region finds at `main_v97` is the argument `main_arg9`. -/
theorem row_main_v97 (c : Dev nD) (q : Fin 64) :
    (V m c main_v97 : S1x64.Idx → EReal) (ix2 (0 : Fin 1) q) = (m ((c : Thread nD τ).loc main_arg9) : S64.Idx → EReal) (ix1 q) := by
  have e : (V m c main_v97 : S1x64.Idx → EReal) = shapeCast S1x64 (m ((c : Thread nD τ).loc main_arg9) : S64.Idx → EReal) shapeCasts_S64_S1x64 := by
    dsimp only [V]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ _ _

set_option maxRecDepth 65536 in
set_option maxHeartbeats 100000000 in
/-- The [1, 64] row the region finds at `main_v98` is the argument `main_arg11`. -/
theorem row_main_v98 (c : Dev nD) (q : Fin 64) :
    (V m c main_v98 : S1x64.Idx → EReal) (ix2 (0 : Fin 1) q) = (m ((c : Thread nD τ).loc main_arg11) : S64.Idx → EReal) (ix1 q) := by
  have e : (V m c main_v98 : S1x64.Idx → EReal) = shapeCast S1x64 (m ((c : Thread nD τ).loc main_arg11) : S64.Idx → EReal) shapeCasts_S64_S1x64 := by
    dsimp only [V]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ _ _

set_option maxRecDepth 65536 in
set_option maxHeartbeats 100000000 in
/-- The [1, 64] row the region finds at `main_v99` is the argument `main_arg12`. -/
theorem row_main_v99 (c : Dev nD) (q : Fin 64) :
    (V m c main_v99 : S1x64.Idx → EReal) (ix2 (0 : Fin 1) q) = (m ((c : Thread nD τ).loc main_arg12) : S64.Idx → EReal) (ix1 q) := by
  have e : (V m c main_v99 : S1x64.Idx → EReal) = shapeCast S1x64 (m ((c : Thread nD τ).loc main_arg12) : S64.Idx → EReal) shapeCasts_S64_S1x64 := by
    dsimp only [V]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ _ _

set_option maxRecDepth 65536 in
set_option maxHeartbeats 100000000 in
/-- The [1, 64] row the region finds at `main_v100` is the argument `main_arg13`. -/
theorem row_main_v100 (c : Dev nD) (q : Fin 64) :
    (V m c main_v100 : S1x64.Idx → EReal) (ix2 (0 : Fin 1) q) = (m ((c : Thread nD τ).loc main_arg13) : S64.Idx → EReal) (ix1 q) := by
  have e : (V m c main_v100 : S1x64.Idx → EReal) = shapeCast S1x64 (m ((c : Thread nD τ).loc main_arg13) : S64.Idx → EReal) shapeCasts_S64_S1x64 := by
    dsimp only [V]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ _ _

end Cert.KernelIdeal.HostSide

end
-- ==== Proof.LibHostRowSum.lean ====
/-
  The host's sum along the columns of a matrix, read at a row.

  On the extended reals a host reduction with `add` along axis 1 of an `[a, b]` matrix, started from a scalar, has at row
  `p` the value "the scalar plus the sum of the `b` entries of row `p`": there is no rounding and no order of summation.
-/
import Idealize.ShloMosaic.Lib.ValueIdx
import Idealize.ShloMosaic.PureOps.Ideal.Laws

namespace Cert.LibHostRowSum

open Idealize.ShloMosaic Idealize.ShloMosaic.ValueIdx

/-- The host's sum along the columns of an `[a, b]` matrix from an initial scalar, at row `p`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hS : 0 < (⟨0, ![]⟩ : Shape).numel) (p : Fin a) :
    Host.reduceAdd x init h' hS (ix1 p) = init (Shape.Idx.first hS) + ∑ k : Fin b, x (ix2 p k) := by
  simp only [Host.reduceAdd, Ideal.hostReduceAdd_def]
  rw [Ideal.hostReduceAdd_single h' h]
  exact congrArg (_ + ·) (Finset.sum_congr rfl fun k _ => congrArg x
    (funext fun ax => Fin.ext (by match ax with | ⟨0, _⟩ => rfl | ⟨1, _⟩ => rfl)))

end Cert.LibHostRowSum
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.RefRow.lean ====
/-
  The reference's host operations read one entry at a time, on the extended reals: the host's product of a 100000 × 64 matrix
  with a 64 × 64 matrix at (r, q) is the sum over c of the entries (r, c) and (c, q); the sum along the 64 columns from an
  initial scalar at row r is that scalar plus the sum of row r's entries; a quotient and a reciprocal square root act entry
  by entry; slab k of the 5 × 64 × 64 weights, cut out with a leading unit axis, reads the weights at (k, c, q).
-/
import proofs.«140817_j45509473468797_2_alg».proof.Proof.Gen.ReferenceIdeal
import proofs.«140817_j45509473468797_2_alg».proof.Proof.LibHostRowSum
import proofs.«140817_j45509473468797_2_alg».proof.Proof.LibBcast
import Idealize.ShloMosaic.Lib.StackMember
import Idealize.ShloMosaic.Lib.ValueLayout
import Idealize.ShloMosaic.Lib.Pipeline.Value

noncomputable section

namespace Cert.ReferenceIdeal.Row

open Cert.ReferenceIdeal Idealize.ShloMosaic Idealize.ShloMosaic.ValueIdx

/-- The host's product of the node matrix with a 64 × 64 matrix, at (r, q). -/
theorem hdot_apply {φ₁ φ₂ : FTy} (A : FVec Ideal S100000x64 φ₁) (B : FVec Ideal S64x64 φ₂) (r : Fin 100000) (q : Fin 64) :
    Host.dotGeneral (F := Ideal) dot_S100000x64_S64x64_S100000x64_1_0_0_1_n_n none A B (ix2 r q)
      = ∑ c : Fin 64, A (ix2 r c) * B (ix2 c q) :=
  StackMember.dotGeneral_plain_apply (m := 100000) (k := 64) (n := 64) none A B r q

/-- The host's quotient, entry by entry. -/
theorem hdivf_apply {s : Shape} {φ : FTy} (a b : FVec Ideal s φ) (i : s.Idx) : Host.divf a b i = Ideal.div (a i) (b i) := rfl

/-- The host's reciprocal square root, entry by entry. -/
theorem hrsqrt_apply {s : Shape} {φ : FTy} (a : FVec Ideal s φ) (i : s.Idx) : Host.rsqrt a i = Ideal.rsqrt (a i) := rfl

/-- The host's sum along the columns from an initial scalar, at row `r`. -/
theorem hsum_apply (x : FVec Ideal S100000x64 .f32) (init : FVec Ideal S_ .f32) (h' : S100000x64.ReducesTo [1] S100000)
    (hS : 0 < S_.numel) (r : Fin 100000) :
    Host.reduceAdd x init h' hS (ix1 r) = init ix0 + ∑ k : Fin 64, x (ix2 r k) :=
  (Cert.LibHostRowSum.hostRowSum_apply (a := 100000) (b := 64) x init h' (by decide) hS r).trans
    (congrArg (fun j => init j + ∑ k : Fin 64, x (ix2 r k)) (eq_ix0 _))

/-- Slab `o` of the 5 × 64 × 64 weights, cut out with a leading unit axis, at (0, c, q). -/
theorem slab_apply (o : ℕ) (ho : o < 5) (X : FVec Ideal S5x64x64 .f32) (h : S5x64x64.Slices ![o, 0, 0] S1x64x64)
    (c q : Fin 64) :
    extractStridedSlice S1x64x64 ![o, 0, 0] X h (ix3 (0 : Fin 1) c q) = X (ix3 (⟨o, ho⟩ : Fin 5) c q) :=
  extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-! ## The broadcasts between this program's shapes, for any element type -/

variable {α : Type}

/-- A length-64 vector made a [1, 64] row and repeated over the 100000 rows reads, at (r, q), the vector at q. -/
theorem bias_apply (b : S64.Idx → α) (h1 : S64.BroadcastsInDim S1x64 (![1] : Fin 1 → Fin S1x64.rank))
    (h2 : S1x64.BroadcastsInDim S100000x64 (![0, 1] : Fin 2 → Fin S100000x64.rank)) (r : Fin 100000) (q : Fin 64) :
    broadcastInDim S100000x64 ![0, 1] h2 (broadcastInDim S1x64 ![1] h1 b) (ix2 r q) = b (ix1 q) :=
  (Cert.LibBcast.bid_1b_ab_apply (a := 100000) (b := 64) _ h2 r q).trans (Cert.LibBcast.bid_row_apply (b := 64) b h1 0 q)

/-- A scalar repeated over the node matrix reads the scalar everywhere. -/
theorem splat_apply (v : S_.Idx → α) (h0 : S_.BroadcastsInDim S100000x64 (![] : Fin 0 → Fin S100000x64.rank)) (i : S100000x64.Idx) :
    broadcastInDim S100000x64 ![] h0 v i = v ix0 :=
  Cert.LibBcast.bid_scalar_apply (t := S100000x64) v h0 i

/-- A scalar repeated over a 100000 × 1 column reads the scalar everywhere. -/
theorem splatCol_apply (v : S_.Idx → α) (h0 : S_.BroadcastsInDim S100000x1 (![] : Fin 0 → Fin S100000x1.rank)) (i : S100000x1.Idx) :
    broadcastInDim S100000x1 ![] h0 v i = v ix0 :=
  Cert.LibBcast.bid_scalar_apply (t := S100000x1) v h0 i

/-- A 100000 × 1 column repeated over the 64 columns reads, at (r, q), the column at (r, 0). -/
theorem keep_apply (v : S100000x1.Idx → α) (h : S100000x1.BroadcastsInDim S100000x64 (![0, 1] : Fin 2 → Fin S100000x64.rank))
    (r : Fin 100000) (q : Fin 64) :
    broadcastInDim S100000x64 ![0, 1] h v (ix2 r q) = v (ix2 r (0 : Fin 1)) :=
  Cert.LibBcast.bid_a1_ab_apply (a := 100000) (b := 64) v h r q

/-- A length-100000 vector made a column reads, at (r, u), the vector at r. -/
theorem col_apply (v : S100000.Idx → α) (h : S100000.BroadcastsInDim S100000x1 (![0] : Fin 1 → Fin S100000x1.rank))
    (r : Fin 100000) (u : Fin 1) :
    broadcastInDim S100000x1 ![0] h v (ix2 r u) = v (ix1 r) :=
  Cert.LibBcast.bid_col_apply (a := 100000) v h r u

/-- A [1, 64, 64] slab viewed as a 64 × 64 matrix, at (c, q). -/
theorem slabCast_apply (x : S1x64x64.Idx → α) (h : S1x64x64.ShapeCasts S64x64) (c q : Fin 64) :
    shapeCast S64x64 x h (ix2 c q) = x (ix3 (0 : Fin 1) c q) :=
  shapeCast_1ab_ab_apply (a := 64) (b := 64) x h c q

/-- A scalar literal on the extended reals, at its one index. -/
theorem lit_apply (z : BitVec 32) (i : S_.Idx) : constant (F := Ideal) S_ .f32 z i = Ideal.ofBits .f32 z := rfl

end Cert.ReferenceIdeal.Row

end
-- ==== Proof.RefDense.lean ====
/-
  The reference's last stage at one entry.

  From the four propagated feature matrices (kept as they are: the stages that scatter and gather along the edges are not
  opened) and the arguments, the reference computes, at (r, q), entry q of the node function applied to row r of the
  feature matrices: its products with the five weight slabs summed left to right, the bias, the hidden layers, the last
  affine layer and the normalisation, each host operation read at the entry. A sum from the initial scalar zero is the sum.
-/
import proofs.«140817_j45509473468797_2_alg».proof.Proof.RefReadP
import proofs.«140817_j45509473468797_2_alg».proof.Proof.RefRow
import proofs.«140817_j45509473468797_2_alg».proof.Proof.Whole

noncomputable section

namespace Cert.ReferenceIdeal.Dense

open Cert.ReferenceIdeal Cert.ReferenceIdeal.Row Idealize.ShloMosaic Idealize.ShloMosaic.ValueIdx Cert.GnRow

/-! ## The stages that only re-lay or sum a value, read at an entry -/

theorem val_main_v114_at (x3 : (⟨S64, .f32⟩ : BufTy).Contents (Elt Ideal)) (r : Fin 100000) (q : Fin 64) :
    ReadP.val_main_v114 (F := Ideal) x3 (ix2 r q) = x3 (ix1 q) := by
  unfold ReadP.val_main_v114 ReadP.val_main_v113
  exact bias_apply _ _ _ r q

theorem val_main_v118_at (x5 : (⟨S64, .f32⟩ : BufTy).Contents (Elt Ideal)) (r : Fin 100000) (q : Fin 64) :
    ReadP.val_main_v118 (F := Ideal) x5 (ix2 r q) = x5 (ix1 q) := by
  unfold ReadP.val_main_v118 ReadP.val_main_v117
  exact bias_apply _ _ _ r q

theorem val_main_v123_at (x7 : (⟨S64, .f32⟩ : BufTy).Contents (Elt Ideal)) (r : Fin 100000) (q : Fin 64) :
    ReadP.val_main_v123 (F := Ideal) x7 (ix2 r q) = x7 (ix1 q) := by
  unfold ReadP.val_main_v123 ReadP.val_main_v122
  exact bias_apply _ _ _ r q

theorem val_main_v128_at (x9 : (⟨S64, .f32⟩ : BufTy).Contents (Elt Ideal)) (r : Fin 100000) (q : Fin 64) :
    ReadP.val_main_v128 (F := Ideal) x9 (ix2 r q) = x9 (ix1 q) := by
  unfold ReadP.val_main_v128 ReadP.val_main_v127
  exact bias_apply _ _ _ r q

theorem val_main_v133_at (x11 : (⟨S64, .f32⟩ : BufTy).Contents (Elt Ideal)) (r : Fin 100000) (q : Fin 64) :
    ReadP.val_main_v133 (F := Ideal) x11 (ix2 r q) = x11 (ix1 q) := by
  unfold ReadP.val_main_v133 ReadP.val_main_v132
  exact bias_apply _ _ _ r q

theorem val_main_v154_at (x12 : (⟨S64, .f32⟩ : BufTy).Contents (Elt Ideal)) (r : Fin 100000) (q : Fin 64) :
    ReadP.val_main_v154 (F := Ideal) x12 (ix2 r q) = x12 (ix1 q) := by
  unfold ReadP.val_main_v154 ReadP.val_main_v153
  exact bias_apply _ _ _ r q

theorem val_main_v157_at (x13 : (⟨S64, .f32⟩ : BufTy).Contents (Elt Ideal)) (r : Fin 100000) (q : Fin 64) :
    ReadP.val_main_v157 (F := Ideal) x13 (ix2 r q) = x13 (ix1 q) := by
  unfold ReadP.val_main_v157 ReadP.val_main_v156
  exact bias_apply _ _ _ r q

theorem val_main_call2_v0_at (i : S100000x64.Idx) :
    ReadP.val_main_call2_v0 (F := Ideal) i = Ideal.ofBits .f32 0x00000000#32 := by
  unfold ReadP.val_main_call2_v0 ReadP.val_main_call2_cst
  exact (splat_apply _ _ i).trans (lit_apply _ _)

theorem val_main_call3_v0_at (i : S100000x64.Idx) :
    ReadP.val_main_call3_v0 (F := Ideal) i = Ideal.ofBits .f32 0x00000000#32 := by
  unfold ReadP.val_main_call3_v0 ReadP.val_main_call3_cst
  exact (splat_apply _ _ i).trans (lit_apply _ _)

theorem val_main_call4_v0_at (i : S100000x64.Idx) :
    ReadP.val_main_call4_v0 (F := Ideal) i = Ideal.ofBits .f32 0x00000000#32 := by
  unfold ReadP.val_main_call4_v0 ReadP.val_main_call4_cst
  exact (splat_apply _ _ i).trans (lit_apply _ _)

theorem val_main_v137_at (i : S100000x1.Idx) :
    ReadP.val_main_v137 (F := Ideal) i = Ideal.ofBits .f32 0x42800000#32 := by
  unfold ReadP.val_main_v137 ReadP.val_main_cst_23
  exact (splatCol_apply _ _ i).trans (lit_apply _ _)

theorem val_main_v144_at (i : S100000x1.Idx) :
    ReadP.val_main_v144 (F := Ideal) i = Ideal.ofBits .f32 0x42800000#32 := by
  unfold ReadP.val_main_v144 ReadP.val_main_cst_25
  exact (splatCol_apply _ _ i).trans (lit_apply _ _)

theorem val_main_v148_at (i : S100000x1.Idx) :
    ReadP.val_main_v148 (F := Ideal) i = Ideal.ofBits .f32 0x3727C5AC#32 := by
  unfold ReadP.val_main_v148 ReadP.val_main_cst_26
  exact (splatCol_apply _ _ i).trans (lit_apply _ _)

theorem val_main_v139_at (x0 : (⟨S100000x64, .f32⟩ : BufTy).Contents (Elt Ideal)) (x1 : (⟨S2x1600000, .i32⟩ : BufTy).Contents (Elt Ideal)) (x2 : (⟨S5x64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (r : Fin 100000) (q : Fin 64) :
    ReadP.val_main_v139 (F := Ideal) x0 x1 x2 x3 x4 x5 x6 x7 x8 x9 x10 x11 (ix2 r q) = ReadP.val_main_v138 (F := Ideal) x0 x1 x2 x3 x4 x5 x6 x7 x8 x9 x10 x11 (ix2 r (0 : Fin 1)) := by
  unfold ReadP.val_main_v139
  exact keep_apply _ _ r q

theorem val_main_v146_at (x0 : (⟨S100000x64, .f32⟩ : BufTy).Contents (Elt Ideal)) (x1 : (⟨S2x1600000, .i32⟩ : BufTy).Contents (Elt Ideal)) (x2 : (⟨S5x64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (r : Fin 100000) (q : Fin 64) :
    ReadP.val_main_v146 (F := Ideal) x0 x1 x2 x3 x4 x5 x6 x7 x8 x9 x10 x11 (ix2 r q) = ReadP.val_main_v138 (F := Ideal) x0 x1 x2 x3 x4 x5 x6 x7 x8 x9 x10 x11 (ix2 r (0 : Fin 1)) := by
  unfold ReadP.val_main_v146
  exact keep_apply _ _ r q

theorem val_main_v151_at (x0 : (⟨S100000x64, .f32⟩ : BufTy).Contents (Elt Ideal)) (x1 : (⟨S2x1600000, .i32⟩ : BufTy).Contents (Elt Ideal)) (x2 : (⟨S5x64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (r : Fin 100000) (q : Fin 64) :
    ReadP.val_main_v151 (F := Ideal) x0 x1 x2 x3 x4 x5 x6 x7 x8 x9 x10 x11 (ix2 r q) = ReadP.val_main_v150 (F := Ideal) x0 x1 x2 x3 x4 x5 x6 x7 x8 x9 x10 x11 (ix2 r (0 : Fin 1)) := by
  unfold ReadP.val_main_v151
  exact keep_apply _ _ r q

theorem val_main_v136_at (x0 : (⟨S100000x64, .f32⟩ : BufTy).Contents (Elt Ideal)) (x1 : (⟨S2x1600000, .i32⟩ : BufTy).Contents (Elt Ideal)) (x2 : (⟨S5x64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (r : Fin 100000) (u : Fin 1) :
    ReadP.val_main_v136 (F := Ideal) x0 x1 x2 x3 x4 x5 x6 x7 x8 x9 x10 x11 (ix2 r u) = ReadP.val_main_v135 (F := Ideal) x0 x1 x2 x3 x4 x5 x6 x7 x8 x9 x10 x11 (ix1 r) := by
  unfold ReadP.val_main_v136
  exact col_apply _ _ r u

theorem val_main_v143_at (x0 : (⟨S100000x64, .f32⟩ : BufTy).Contents (Elt Ideal)) (x1 : (⟨S2x1600000, .i32⟩ : BufTy).Contents (Elt Ideal)) (x2 : (⟨S5x64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (r : Fin 100000) (u : Fin 1) :
    ReadP.val_main_v143 (F := Ideal) x0 x1 x2 x3 x4 x5 x6 x7 x8 x9 x10 x11 (ix2 r u) = ReadP.val_main_v142 (F := Ideal) x0 x1 x2 x3 x4 x5 x6 x7 x8 x9 x10 x11 (ix1 r) := by
  unfold ReadP.val_main_v143
  exact col_apply _ _ r u

theorem val_main_v135_at (x0 : (⟨S100000x64, .f32⟩ : BufTy).Contents (Elt Ideal)) (x1 : (⟨S2x1600000, .i32⟩ : BufTy).Contents (Elt Ideal)) (x2 : (⟨S5x64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (r : Fin 100000) :
    ReadP.val_main_v135 (F := Ideal) x0 x1 x2 x3 x4 x5 x6 x7 x8 x9 x10 x11 (ix1 r) = ∑ k : Fin 64, ReadP.val_main_v134 (F := Ideal) x0 x1 x2 x3 x4 x5 x6 x7 x8 x9 x10 x11 (ix2 r k) := by
  unfold ReadP.val_main_v135 ReadP.val_main_cst_22
  refine (hsum_apply _ _ _ _ r).trans ?_
  rw [lit_apply, Ideal.ofBits_zero_f32, zero_add]

theorem val_main_v142_at (x0 : (⟨S100000x64, .f32⟩ : BufTy).Contents (Elt Ideal)) (x1 : (⟨S2x1600000, .i32⟩ : BufTy).Contents (Elt Ideal)) (x2 : (⟨S5x64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (r : Fin 100000) :
    ReadP.val_main_v142 (F := Ideal) x0 x1 x2 x3 x4 x5 x6 x7 x8 x9 x10 x11 (ix1 r) = ∑ k : Fin 64, ReadP.val_main_v141 (F := Ideal) x0 x1 x2 x3 x4 x5 x6 x7 x8 x9 x10 x11 (ix2 r k) := by
  unfold ReadP.val_main_v142 ReadP.val_main_cst_24
  refine (hsum_apply _ _ _ _ r).trans ?_
  rw [lit_apply, Ideal.ofBits_zero_f32, zero_add]

/-! ## The last stage -/

set_option maxHeartbeats 4000000 in
/-- THE REFERENCE AT ONE ENTRY. -/
theorem dense_apply (x0 : (⟨S100000x64, .f32⟩ : BufTy).Contents (Elt Ideal)) (x1 : (⟨S2x1600000, .i32⟩ : BufTy).Contents (Elt Ideal)) (x2 : (⟨S5x64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal))
    (r : Fin 100000) (q : Fin 64) :
    ReadP.val_main_v158 (F := Ideal) x0 x1 x2 x3 x4 x5 x6 x7 x8 x9 x10 x11 x12 x13 (ix2 r q)
      = nodeAt x0 (ReadP.val_main_v48 (F := Ideal) x0 x1) (ReadP.val_main_v68 (F := Ideal) x0 x1)
          (ReadP.val_main_v88 (F := Ideal) x0 x1) (ReadP.val_main_v108 (F := Ideal) x0 x1) x2
          (fun q => x3 (ix1 q)) x4 (fun q => x5 (ix1 q)) x6 (fun q => x7 (ix1 q)) x8 (fun q => x9 (ix1 q)) x10 (fun q => x11 (ix1 q)) (fun q => x12 (ix1 q)) (fun q => x13 (ix1 q)) r q := by
  simp only [ReadP.val_main_v158, ReadP.val_main_v155, ReadP.val_main_v152, ReadP.val_main_v147, ReadP.val_main_v134, ReadP.val_main_v131, ReadP.val_main_v130, ReadP.val_main_v129, ReadP.val_main_v126, ReadP.val_main_v125, ReadP.val_main_v124, ReadP.val_main_v121, ReadP.val_main_v120, ReadP.val_main_v119, ReadP.val_main_v116, ReadP.val_main_v115, ReadP.val_main_v112, ReadP.val_main_v92, ReadP.val_main_v72, ReadP.val_main_v52, ReadP.val_main_v35, ReadP.val_main_v34, ReadP.val_main_v33, ReadP.val_main_v51, ReadP.val_main_v50, ReadP.val_main_v49, ReadP.val_main_v71, ReadP.val_main_v70, ReadP.val_main_v69, ReadP.val_main_v91, ReadP.val_main_v90, ReadP.val_main_v89, ReadP.val_main_v111, ReadP.val_main_v110, ReadP.val_main_v109, ReadP.val_main_v138, ReadP.val_main_v150, ReadP.val_main_v149, ReadP.val_main_v145, ReadP.val_main_v141, ReadP.val_main_v140,
    val_main_v114_at, val_main_v118_at, val_main_v123_at, val_main_v128_at, val_main_v133_at, val_main_v154_at, val_main_v157_at, val_main_call2_v0_at, val_main_call3_v0_at, val_main_call4_v0_at, val_main_v137_at, val_main_v144_at, val_main_v148_at, val_main_v139_at, val_main_v146_at, val_main_v151_at, val_main_v136_at, val_main_v143_at, val_main_v135_at, val_main_v142_at,
    addf_apply, subf_apply, mulf_apply, maximumf_apply, hdivf_apply, hrsqrt_apply, hdot_apply, slabCast_apply,
    slab_apply 0 (by decide), slab_apply 1 (by decide), slab_apply 2 (by decide), slab_apply 3 (by decide), slab_apply 4 (by decide)]
  rfl

end Cert.ReferenceIdeal.Dense

end
-- ==== Proof.Bridge.lean ====
/-
  The two results are one function of the arguments.

  The kernel's result array is the node function applied to every row of the arrays its region finds; the reference's last
  stage, read at an entry, is the node function applied to the same row of its own stages. The feature arrays the region
  finds are the reference's stages, the weights are the arguments themselves, and the bias, gain and offset rows are the
  length-64 arguments: entry by entry the two are equal.
-/
import proofs.«140817_j45509473468797_2_alg».proof.Proof.KernelValue
import proofs.«140817_j45509473468797_2_alg».proof.Proof.KernelHost
import proofs.«140817_j45509473468797_2_alg».proof.Proof.RefDense

noncomputable section

open Idealize.ShloMosaic Idealize.ShloMosaic.TcCoe Idealize.SL.Sem

namespace Cert.Bridge

open Cert.KernelIdeal Cert.KernelIdeal.Gen Cert.KernelIdeal.Hand Cert.KernelIdeal.HostSide Idealize.ShloMosaic.ValueIdx Cert.GnRow

variable (m : (ℓ : Loc nD τ sig) → Buf (Elt Ideal) ℓ)

set_option maxHeartbeats 4000000 in
/-- The kernel's result array is the reference's last stage of the same fourteen arguments. -/
theorem result_eq (c : Dev nD) :
    resultArr m c = Cert.ReferenceIdeal.ReadP.val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨r, q, rfl⟩ : ∃ (r : Fin 100000) (q : Fin 64), i = ix2 r q := ⟨i 0, i 1, eq_ix2 i⟩
  rw [Cert.ReferenceIdeal.Dense.dense_apply]
  unfold resultArr
  rw [whole_ix2]
  have e0 : (V m c (Pipeline.arrRef spec0 0) : S100000x64.Idx → EReal) = m ((c : Thread nD τ).loc main_arg0) := V_main_arg0 m c
  have e1 : (V m c (Pipeline.arrRef spec0 1) : S100000x64.Idx → EReal) = _ := tx1_eq m c
  have e2 : (V m c (Pipeline.arrRef spec0 2) : S100000x64.Idx → EReal) = _ := tx2_eq m c
  have e3 : (V m c (Pipeline.arrRef spec0 3) : S100000x64.Idx → EReal) = _ := tx3_eq m c
  have e4 : (V m c (Pipeline.arrRef spec0 4) : S100000x64.Idx → EReal) = _ := tx4_eq m c
  have e5 : (V m c (Pipeline.arrRef spec0 5) : S5x64x64.Idx → EReal) = m ((c : Thread nD τ).loc main_arg2) := V_main_arg2 m c
  have e6 : (fun q : Fin 64 => (V m c (Pipeline.arrRef spec0 6) : S1x64.Idx → EReal) (ix2 (0 : Fin 1) q))
      = fun q => (m ((c : Thread nD τ).loc main_arg3) : S64.Idx → EReal) (ix1 q) := funext fun q => row_main_v94 m c q
  have e7 : (V m c (Pipeline.arrRef spec0 7) : S64x64.Idx → EReal) = m ((c : Thread nD τ).loc main_arg4) := V_main_arg4 m c
  have e8 : (fun q : Fin 64 => (V m c (Pipeline.arrRef spec0 8) : S1x64.Idx → EReal) (ix2 (0 : Fin 1) q))
      = fun q => (m ((c : Thread nD τ).loc main_arg5) : S64.Idx → EReal) (ix1 q) := funext fun q => row_main_v95 m c q
  have e9 : (V m c (Pipeline.arrRef spec0 9) : S64x64.Idx → EReal) = m ((c : Thread nD τ).loc main_arg6) := V_main_arg6 m c
  have e10 : (fun q : Fin 64 => (V m c (Pipeline.arrRef spec0 10) : S1x64.Idx → EReal) (ix2 (0 : Fin 1) q))
      = fun q => (m ((c : Thread nD τ).loc main_arg7) : S64.Idx → EReal) (ix1 q) := funext fun q => row_main_v96 m c q
  have e11 : (V m c (Pipeline.arrRef spec0 11) : S64x64.Idx → EReal) = m ((c : Thread nD τ).loc main_arg8) := V_main_arg8 m c
  have e12 : (fun q : Fin 64 => (V m c (Pipeline.arrRef spec0 12) : S1x64.Idx → EReal) (ix2 (0 : Fin 1) q))
      = fun q => (m ((c : Thread nD τ).loc main_arg9) : S64.Idx → EReal) (ix1 q) := funext fun q => row_main_v97 m c q
  have e13 : (V m c (Pipeline.arrRef spec0 13) : S64x64.Idx → EReal) = m ((c : Thread nD τ).loc main_arg10) := V_main_arg10 m c
  have e14 : (fun q : Fin 64 => (V m c (Pipeline.arrRef spec0 14) : S1x64.Idx → EReal) (ix2 (0 : Fin 1) q))
      = fun q => (m ((c : Thread nD τ).loc main_arg11) : S64.Idx → EReal) (ix1 q) := funext fun q => row_main_v98 m c q
  have e15 : (fun q : Fin 64 => (V m c (Pipeline.arrRef spec0 15) : S1x64.Idx → EReal) (ix2 (0 : Fin 1) q))
      = fun q => (m ((c : Thread nD τ).loc main_arg12) : S64.Idx → EReal) (ix1 q) := funext fun q => row_main_v99 m c q
  have e16 : (fun q : Fin 64 => (V m c (Pipeline.arrRef spec0 16) : S1x64.Idx → EReal) (ix2 (0 : Fin 1) q))
      = fun q => (m ((c : Thread nD τ).loc main_arg13) : S64.Idx → EReal) (ix1 q) := funext fun q => row_main_v100 m c q
  rw [e0, e1, e2, e3, e4, e5, e6, e7, e8, e9, e10, e11, e12, e13, e14, e15, e16]

end Cert.Bridge

end
-- ==== Proof.lean ====
/-
  The certificate: the kernel (a fused Chebyshev combination, four-layer perceptron and layer normalisation over tiles of
  10000 nodes, after four propagations along the graph's edges on the host) against its reference, on the extended reals.

  The three frames are the generated frame runs (the reference's its run with the result dropped). The idealization
  rewrote nothing, so it preserves the kernel trivially. For the values: the kernel's result array is the node function
  applied to every row of the feature arrays its region finds (the body read one entry at a time, the ten tiles covering
  the array); the reference's result is the last stage of its fold of operations, which at an entry is the node function
  of the same row of its own stages; and the arrays the region finds are those stages of the same arguments. No law of
  arithmetic is needed beyond this: both sides spell the same sums, products, maxima, quotient and reciprocal square root
  in the same order, and the precondition is never opened.
-/
import proofs.«140817_j45509473468797_2_alg».proof.Defs
import proofs.«140817_j45509473468797_2_alg».proof.Proof.Gen.Kernel
import proofs.«140817_j45509473468797_2_alg».proof.Proof.Gen.Kernel.Frame
import proofs.«140817_j45509473468797_2_alg».proof.Proof.Gen.KernelIdeal
import proofs.«140817_j45509473468797_2_alg».proof.Proof.Gen.KernelIdeal.Frame
import proofs.«140817_j45509473468797_2_alg».proof.Proof.Gen.KernelIdeal.Value
import proofs.«140817_j45509473468797_2_alg».proof.Proof.Gen.ReferenceIdeal
import proofs.«140817_j45509473468797_2_alg».proof.Proof.Gen.Pre_finite_inputs
import proofs.«140817_j45509473468797_2_alg».proof.Proof.RefRunP
import proofs.«140817_j45509473468797_2_alg».proof.Proof.RefFold
import proofs.«140817_j45509473468797_2_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation: nothing to preserve. -/
theorem preserves : Cert.preserves_Kernel_KernelIdeal := trivial

/-- At the ideal instance the kernel's result array and the reference's result are the same function of arguments that
    agree. -/
theorem algebraic : Cert.algebraic_KernelIdeal_ReferenceIdeal := by
  intro m ρ m' ρ' _ hagree
  refine ⟨fun c => Cert.KernelIdeal.Hand.resultArr m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Fold.fold_eq]
  obtain ⟨a0, a1, a2, a3, a4, a5, a6, a7, a8, a9, a10, a11, a12, a13⟩ := hagree c
  rw [a0, a1, a2, a3, a4, a5, a6, a7, a8, a9, a10, a11, a12, a13]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
